-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x20 : Shape := ⟨3, ![8, 256, 20]⟩
abbrev S8x16384x20 : Shape := ⟨3, ![8, 16384, 20]⟩
abbrev S8x16384x256 : Shape := ⟨3, ![8, 16384, 256]⟩
abbrev S_ : Shape := ⟨0, ![]⟩

class Facts : Prop where
  bcast_S_S8x256x20 : S_.BroadcastsInDim S8x256x20 (![] : Fin 0 → Fin S8x256x20.rank)
  reducesTo_S8x256x20_S_d0_1_2 : S8x256x20.ReducesTo [0, 1, 2] S_
  h_S_ : 0 < S_.numel
  bcast_S_S8x16384x20 : S_.BroadcastsInDim S8x16384x20 (![] : Fin 0 → Fin S8x16384x20.rank)
  reducesTo_S8x16384x20_S_d0_1_2 : S8x16384x20.ReducesTo [0, 1, 2] S_
  bcast_S_S8x16384x256 : S_.BroadcastsInDim S8x16384x256 (![] : Fin 0 → Fin S8x16384x256.rank)
  reducesTo_S8x16384x256_S_d0_1_2 : S8x16384x256.ReducesTo [0, 1, 2] S_

variable [Facts]

def fn_part1 {F : FTy → Type} [FloatOps F] (main_v13 : IVec S_ 1) (main_v16 : IVec S8x16384x256 1) : IVec S_ 1 :=
  let main_c_5 : IVec S_ 1 := constantI S_ 1 1#1
  let main_v17 : IVec S_ 1 := (fun x v => Host.reduce IntOp.andi x v reducesTo_S8x16384x256_S_d0_1_2 h_S_) main_v16 main_c_5
  let main_v18 : IVec S_ 1 := andi main_v13 main_v17
  main_v18

def fn {F : FTy → Type} [FloatOps F] (main_arg0 : FVec F S8x256x20 .f32) (main_arg1 : FVec F S8x16384x20 .f32) (main_arg2 : FVec F S8x16384x256 .f32) (main_arg3 : FVec F S8x16384x256 .f32) : IVec S_ 1 :=
  let main_v0 : FVec F S8x256x20 .f32 := Host.absf main_arg0
  let main_cst : FVec F S_ .f32 := constant S_ .f32 0x7F800000#32
  let main_v1 : FVec F S8x256x20 .f32 := broadcastInDim S8x256x20 ![] bcast_S_S8x256x20 main_cst
  let main_v2 : IVec S8x256x20 1 := cmpf .olt main_v0 main_v1
  let main_c : IVec S_ 1 := constantI S_ 1 1#1
  let main_v3 : IVec S_ 1 := (fun x v => Host.reduce IntOp.andi x v reducesTo_S8x256x20_S_d0_1_2 h_S_) main_v2 main_c
  let main_v4 : FVec F S8x16384x20 .f32 := Host.absf main_arg1
  let main_cst_0 : FVec F S_ .f32 := constant S_ .f32 0x7F800000#32
  let main_v5 : FVec F S8x16384x20 .f32 := broadcastInDim S8x16384x20 ![] bcast_S_S8x16384x20 main_cst_0
  let main_v6 : IVec S8x16384x20 1 := cmpf .olt main_v4 main_v5
  let main_c_1 : IVec S_ 1 := constantI S_ 1 1#1
  let main_v7 : IVec S_ 1 := (fun x v => Host.reduce IntOp.andi x v reducesTo_S8x16384x20_S_d0_1_2 h_S_) main_v6 main_c_1
  let main_v8 : IVec S_ 1 := andi main_v3 main_v7
  let main_v9 : FVec F S8x16384x256 .f32 := Host.absf main_arg2
  let main_cst_2 : FVec F S_ .f32 := constant S_ .f32 0x7F800000#32
  let main_v10 : FVec F S8x16384x256 .f32 := broadcastInDim S8x16384x256 ![] bcast_S_S8x16384x256 main_cst_2
  let main_v11 : IVec S8x16384x256 1 := cmpf .olt main_v9 main_v10
  let main_c_3 : IVec S_ 1 := constantI S_ 1 1#1
  let main_v12 : IVec S_ 1 := (fun x v => Host.reduce IntOp.andi x v reducesTo_S8x16384x256_S_d0_1_2 h_S_) main_v11 main_c_3
  let main_v13 : IVec S_ 1 := andi main_v8 main_v12
  let main_v14 : FVec F S8x16384x256 .f32 := Host.absf main_arg3
  let main_cst_4 : FVec F S_ .f32 := constant S_ .f32 0x7F800000#32
  let main_v15 : FVec F S8x16384x256 .f32 := broadcastInDim S8x16384x256 ![] bcast_S_S8x16384x256 main_cst_4
  let main_v16 : IVec S8x16384x256 1 := cmpf .olt main_v14 main_v15
  fn_part1 (F := F) main_v13 main_v16
-- ==== Kernel.lean ====
abbrev S8x256x20 : Shape := ⟨3, ![8, 256, 20]⟩
abbrev S8x16384x20 : Shape := ⟨3, ![8, 16384, 20]⟩
abbrev S8x16384x256 : Shape := ⟨3, ![8, 16384, 256]⟩
abbrev S1x256x20 : Shape := ⟨3, ![1, 256, 20]⟩
abbrev S1x2048x20 : Shape := ⟨3, ![1, 2048, 20]⟩
abbrev S1x2048x256 : Shape := ⟨3, ![1, 2048, 256]⟩
abbrev S256x1 : Shape := ⟨2, ![256, 1]⟩
abbrev S256x20 : Shape := ⟨2, ![256, 20]⟩
abbrev S2048x20 : Shape := ⟨2, ![2048, 20]⟩
abbrev S2048x256 : Shape := ⟨2, ![2048, 256]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S20x256 : Shape := ⟨2, ![20, 256]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S8x256x20, .f32⟩
  | .hbm, ⟨1, _⟩ => ⟨S8x16384x20, .f32⟩
  | .hbm, ⟨2, _⟩ => ⟨S8x16384x256, .f32⟩
  | .hbm, ⟨3, _⟩ => ⟨S8x16384x256, .f32⟩
  | .hbm, ⟨4, _⟩ => ⟨S8x256x20, .f32⟩
  | .local _ .vmem, ⟨0, _⟩ => ⟨S1x256x20, .f32⟩
  | .local _ .vmem, ⟨1, _⟩ => ⟨S1x256x20, .f32⟩
  | .local _ .vmem, ⟨2, _⟩ => ⟨S1x2048x20, .f32⟩
  | .local _ .vmem, ⟨3, _⟩ => ⟨S1x2048x20, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x20, .f32⟩
  | .local _ .vmem, ⟨9, _⟩ => ⟨S1x256x20, .f32⟩
  | .local _ .vmem, ⟨10, _⟩ => ⟨S256x1, .f32⟩
  | _, _ => ⟨S8x256x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x256x20_S1x256x20_0_0_0 : ∀ a, (![0, 0, 0] : Fin 3 → Nat) a + S1x256x20.size a ≤ S1x256x20.size a
  h_S1x256x20 : 0 < S1x256x20.numel
  shapeCasts_S1x256x20_S256x20 : S1x256x20.ShapeCasts S256x20
  shapeCasts_S256x20_S1x256x20 : S256x20.ShapeCasts S1x256x20
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048x20_S1x2048x20_0_0_0 : ∀ a, (![0, 0, 0] : Fin 3 → Nat) a + S1x2048x20.size a ≤ S1x2048x20.size a
  h_S1x2048x20 : 0 < S1x2048x20.numel
  shapeCasts_S1x2048x20_S2048x20 : S1x2048x20.ShapeCasts S2048x20
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  reduces_S2048x20_S2048 : S2048x20.Reduces [1] S2048
  shapeCasts_S2048_S2048x1 : S2048.ShapeCasts S2048x1
  reduces_S256x20_S256 : S256x20.Reduces [1] S256
  shapeCasts_S256_S1x256 : S256.ShapeCasts S1x256
  transposes_S256x20_p1_0_S20x256 : S256x20.Transposes [1, 0] S20x256
  broadcasts_S2048x1_S2048x256 : S2048x1.Broadcasts S2048x256
  broadcasts_S1x256_S2048x256 : S1x256.Broadcasts S2048x256
  reduces_S2048x256_S2048 : S2048x256.Reduces [1] S2048
  reduces_S2048x256_S256 : S2048x256.Reduces [0] S256
  shapeCasts_S256_S256x1 : S256.ShapeCasts S256x1
  transposes_S2048x256_p1_0_S256x2048 : S2048x256.Transposes [1, 0] S256x2048
  broadcasts_S256x1_S256x20 : S256x1.Broadcasts S256x20
  dot_S2048x20_S20x256_S2048x256_1_0_0_1_n_n_wf : DotDims.WF S2048x20 S20x256 S2048x256 [1] [0] [0] [1] [] []
  dot_S256x2048_S2048x20_S256x20_1_0_0_1_n_n_wf : DotDims.WF S256x2048 S2048x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x20.size a ≤ S8x256x20.size a
  hwx0_0 : ∀ i : grid0.Coords, EltTy.bits .f32 = 32 ∨ (Rect.block (s := S8x256x20) S1x256x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x20.size a ≤ S8x16384x20.size a
  hwx0_1 : ∀ i : grid0.Coords, EltTy.bits .f32 = 32 ∨ (Rect.block (s := S8x16384x20) S1x2048x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x16384x256.size a
  hwx0_2 : ∀ i : grid0.Coords, EltTy.bits .f32 = 32 ∨ (Rect.block (s := S8x16384x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x16384x256.size a
  hwx0_3 : ∀ i : grid0.Coords, EltTy.bits .f32 = 32 ∨ (Rect.block (s := S8x16384x256) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x20.size a ≤ S8x256x20.size a
  hwx0_4 : ∀ i : grid0.Coords, EltTy.bits .f32 = 32 ∨ (Rect.block (s := S8x256x20) S1x256x20.size (cc0_transform_4 i) (hinb0_4 i)).WholeWords (EltTy.packing .f32)

variable [Facts₀]

def dot_S2048x20_S20x256_S2048x256_1_0_0_1_n_n : DotDims S2048x20 S20x256 S2048x256 where
  lhsContracting := [1]
  rhsContracting := [0]
  lhsNonContracting := [0]
  rhsNonContracting := [1]
  lhsBatch := []
  rhsBatch := []
  wf := dot_S2048x20_S20x256_S2048x256_1_0_0_1_n_n_wf
def dot_S256x2048_S2048x20_S256x20_1_0_0_1_n_n : DotDims S256x2048 S2048x20 S256x20 where
  lhsContracting := [1]
  rhsContracting := [0]
  lhsNonContracting := [0]
  rhsNonContracting := [1]
  lhsBatch := []
  rhsBatch := []
  wf := dot_S256x2048_S2048x20_S256x20_1_0_0_1_n_n_wf

abbrev win0_0 : Pipeline.Window sig grid0 :=
  Pipeline.Window.ofSpec (Memref.whole main_arg0) S1x256x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x20.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x20 : Shape := ⟨3, ![8, 256, 20]⟩
abbrev S8x16384x20 : Shape := ⟨3, ![8, 16384, 20]⟩
abbrev S8x16384x256 : Shape := ⟨3, ![8, 16384, 256]⟩
abbrev S_ : Shape := ⟨0, ![]⟩
abbrev S8x16384 : Shape := ⟨2, ![8, 16384]⟩
abbrev S8x256 : Shape := ⟨2, ![8, 256]⟩
abbrev S8x16384x1 : Shape := ⟨3, ![8, 16384, 1]⟩
abbrev S8x1x256 : Shape := ⟨3, ![8, 1, 256]⟩

abbrev nBuf : Space → Nat
  | .hbm => 50
  | .vmem => 0
  | .smem => 0
  | _ => 0

abbrev bufTy : (tb : Table) → Fin (tcTables nBuf tb) → BufTy
  | .hbm, ⟨0, _⟩ => ⟨S8x256x20, .f32⟩
  | .hbm, ⟨1, _⟩ => ⟨S8x16384x20, .f32⟩
  | .hbm, ⟨2, _⟩ => ⟨S8x16384x256, .f32⟩
  | .hbm, ⟨3, _⟩ => ⟨S8x16384x256, .f32⟩
  | .hbm, ⟨4, _⟩ => ⟨S8x16384x20, .f32⟩
  | .hbm, ⟨5, _⟩ => ⟨S_, .f32⟩
  | .hbm, ⟨6, _⟩ => ⟨S8x16384, .f32⟩
  | .hbm, ⟨7, _⟩ => ⟨S8x256x20, .f32⟩
  | .hbm, ⟨8, _⟩ => ⟨S_, .f32⟩
  | .hbm, ⟨9, _⟩ => ⟨S8x256, .f32⟩
  | .hbm, ⟨10, _⟩ => ⟨S8x16384x256, .f32⟩
  | .hbm, ⟨11, _⟩ => ⟨S8x16384x1, .f32⟩
  | .hbm, ⟨12, _⟩ => ⟨S_, .f32⟩
  | .hbm, ⟨13, _⟩ => ⟨S8x16384x256, .f32⟩
  | .hbm, ⟨14, _⟩ => ⟨S8x16384x256, .f32⟩
  | .hbm, ⟨15, _⟩ => ⟨S8x16384x256, .f32⟩
  | .hbm, ⟨16, _⟩ => ⟨S8x16384x256, .f32⟩
  | .hbm, ⟨17, _⟩ => ⟨S8x1x256, .f32⟩
  | .hbm, ⟨18, _⟩ => ⟨S8x16384x256, .f32⟩
  | .hbm, ⟨19, _⟩ => ⟨S8x16384x256, .f32⟩
  | .hbm, ⟨20, _⟩ => ⟨S8x16384x256, .f32⟩
  | .hbm, ⟨21, _⟩ => ⟨S8x16384x256, .f32⟩
  | .hbm, ⟨22, _⟩ => ⟨S8x16384x256, .f32⟩
  | .hbm, ⟨23, _⟩ => ⟨S_, .f32⟩
  | .hbm, ⟨24, _⟩ => ⟨S8x16384x256, .f32⟩
  | .hbm, ⟨25, _⟩ => ⟨S8x16384x256, .f32⟩
  | .hbm, ⟨26, _⟩ => ⟨S_, .f32⟩
  | .hbm, ⟨27, _⟩ => ⟨S8x16384, .f32⟩
  | .hbm, ⟨28, _⟩ => ⟨S_, .f32⟩
  | .hbm, ⟨29, _⟩ => ⟨S8x16384, .f32⟩
  | .hbm, ⟨30, _⟩ => ⟨S8x16384, .f32⟩
  | .hbm, ⟨31, _⟩ => ⟨S8x16384x1, .f32⟩
  | .hbm, ⟨32, _⟩ => ⟨S8x16384x256, .f32⟩
  | .hbm, ⟨33, _⟩ => ⟨S8x16384x256, .f32⟩
  | .hbm, ⟨34, _⟩ => ⟨S8x16384x256, .f32⟩
  | .hbm, ⟨35, _⟩ => ⟨S_, .f32⟩
  | .hbm, ⟨36, _⟩ => ⟨S8x16384, .f32⟩
  | .hbm, ⟨37, _⟩ => ⟨S8x16384x1, .f32⟩
  | .hbm, ⟨38, _⟩ => ⟨S8x16384x256, .f32⟩
  | .hbm, ⟨39, _⟩ => ⟨S8x16384x256, .f32⟩
  | .hbm, ⟨40, _⟩ => ⟨S8x16384x256, .f32⟩
  | .hbm, ⟨41, _⟩ => ⟨S_, .f32⟩
  | .hbm, ⟨42, _⟩ => ⟨S8x256, .f32⟩
  | .hbm, ⟨43, _⟩ => ⟨S8x1x256, .f32⟩
  | .hbm, ⟨44, _⟩ => ⟨S_, .f32⟩
  | .hbm, ⟨45, _⟩ => ⟨S8x1x256, .f32⟩
  | .hbm, ⟨46, _⟩ => ⟨S8x1x256, .f32⟩
  | .hbm, ⟨47, _⟩ => ⟨S8x16384x256, .f32⟩
  | .hbm, ⟨48, _⟩ => ⟨S8x16384x256, .f32⟩
  | .hbm, ⟨49, _⟩ => ⟨S8x256x20, .f32⟩
  | _, _ => ⟨S8x256x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S8x16384x20_S8x16384_d2 : S8x16384x20.ReducesTo [2] S8x16384
  h_S_ : 0 < S_.numel
  reducesTo_S8x256x20_S8x256_d2 : S8x256x20.ReducesTo [2] S8x256
  bcast_S8x16384_S8x16384x1_0_1 : S8x16384.BroadcastsInDim S8x16384x1 (![0, 1] : Fin 2 → Fin S8x16384x1.rank)
  bcast_S_S8x16384x256 : S_.BroadcastsInDim S8x16384x256 (![] : Fin 0 → Fin S8x16384x256.rank)
  bcast_S8x16384x1_S8x16384x256_0_1_2 : S8x16384x1.BroadcastsInDim S8x16384x256 (![0, 1, 2] : Fin 3 → Fin S8x16384x256.rank)
  bcast_S8x256_S8x1x256_0_2 : S8x256.BroadcastsInDim S8x1x256 (![0, 2] : Fin 2 → Fin S8x1x256.rank)
  bcast_S8x1x256_S8x16384x256_0_1_2 : S8x1x256.BroadcastsInDim S8x16384x256 (![0, 1, 2] : Fin 3 → Fin S8x16384x256.rank)
  reducesTo_S8x16384x256_S8x16384_d2 : S8x16384x256.ReducesTo [2] S8x16384
  bcast_S_S8x16384 : S_.BroadcastsInDim S8x16384 (![] : Fin 0 → Fin S8x16384.rank)
  reducesTo_S8x16384x256_S8x256_d1 : S8x16384x256.ReducesTo [1] S8x256
  bcast_S_S8x1x256 : S_.BroadcastsInDim S8x1x256 (![] : Fin 0 → Fin S8x1x256.rank)
  dot_S8x16384x20_S8x256x20_S8x16384x256_2_2_1_1_0_0_wf : DotDims.WF S8x16384x20 S8x256x20 S8x16384x256 [2] [2] [1] [1] [0] [0]
  dot_S8x16384x256_S8x16384x20_S8x256x20_1_1_2_2_0_0_wf : DotDims.WF S8x16384x256 S8x16384x20 S8x256x20 [1] [1] [2] [2] [0] [0]

variable [Facts₀]

def dot_S8x16384x20_S8x256x20_S8x16384x256_2_2_1_1_0_0 : DotDims S8x16384x20 S8x256x20 S8x16384x256 where
  lhsContracting := [2]
  rhsContracting := [2]
  lhsNonContracting := [1]
  rhsNonContracting := [1]
  lhsBatch := [0]
  rhsBatch := [0]
  wf := dot_S8x16384x20_S8x256x20_S8x16384x256_2_2_1_1_0_0_wf
def dot_S8x16384x256_S8x16384x20_S8x256x20_1_1_2_2_0_0 : DotDims S8x16384x256 S8x16384x20 S8x256x20 where
  lhsContracting := [1]
  rhsContracting := [1]
  lhsNonContracting := [2]
  rhsNonContracting := [2]
  lhsBatch := [0]
  rhsBatch := [0]
  wf := dot_S8x16384x256_S8x16384x20_S8x256x20_1_1_2_2_0_0_wf

class Facts : Prop extends Facts₀ where

variable [Facts]
-- ==== Proof.Pieces.lean ====
/-
  What one grid point's body leaves behind, as values.

  The body works on one batch entry b and one tile of 2048 pixels.  From the tile's blocks (the 256 centres, the
  tile's features, its mask and its offsets) it computes the tile's soft assignments, adds their column sums to a
  256-entry running column sum and the assignment-weighted feature sums to a 256×20 running numerator.  At the first
  tile both running values start from zero; at the last tile the numerator is divided, row by row, by the column sum
  clamped below at 1e-12.  The lemmas here read each of the three control cases' stores back as these steps applied to
  the point's input blocks and to what the point before left.
-/
import proofs.«163917_j86466281603856_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- One tile's contribution added to the running column sum: `acc + Σ_r post(r, ·)` over the tile's 2048 rows. -/
def colStep (x0 : Vec F S1x256x20 .f32) (x1 : Vec F S1x2048x20 .f32) (x2 : Vec F S1x2048x256 .f32) (x3 : Vec F S1x2048x256 .f32) (acc : Vec F S256x1 .f32) : Vec F S256x1 .f32 :=
  k0_pay2 (k0_pay9 x0 x1 x2 x3) (k0_pay10 x0 x1 x2 x3) k0_pay11 acc

/-- One tile's contribution added to the running numerator: `acc + postᵀ · features` over the tile's 2048 rows. -/
def numStep (x0 : Vec F S1x256x20 .f32) (x1 : Vec F S1x2048x20 .f32) (x2 : Vec F S1x2048x256 .f32) (x3 : Vec F S1x2048x256 .f32) (acc : Vec F S1x256x20 .f32) : Vec F S1x256x20 .f32 :=
  k0_pay3 (k0_pay8 x1) (k0_pay9 x0 x1 x2 x3) (k0_pay10 x0 x1 x2 x3) k0_pay11 acc

/-- The last tile's division: the numerator over the column sum clamped below. -/
def finish (s : Vec F S256x1 .f32) (o : Vec F S1x256x20 .f32) : Vec F S1x256x20 .f32 := k0_pay4 s o

/-- The zero column the first tile starts the column sum from. -/
abbrev zeroCol : Vec F S256x1 .f32 := k0_pay6
/-- The zero block the first tile starts the numerator from. -/
abbrev zeroNum : Vec F S1x256x20 .f32 := k0_pay5

/-- First tile: the column sum is the tile's step from zero. -/
theorem scratch_first (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : cond0_0 i) (hc1 : ¬cond0_1 i) (x0 : Vec F S1x256x20 .f32) (x1 : Vec F S1x2048x20 .f32) (x2 : Vec F S1x2048x256 .f32) (x3 : Vec F S1x2048x256 .f32) :
    sout0_A_0 c i a2 h2 a3 h3 a4 h4 a5 h5 a6 h6 a7 h7 hc0 hc1 x0 x1 x2 x3 = colStep x0 x1 x2 x3 zeroCol := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x1) zero2]
  simp only [View.readAt_eq_ld, View.readCov_unit_zero (S := S1x256x20) _ zero3, View.readCov_unit_zero (S := S256x1) _ zero2, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

/-- First tile: the numerator is the tile's step from zero. -/
theorem out_first (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : cond0_0 i) (hc1 : ¬cond0_1 i) (x0 : Vec F S1x256x20 .f32) (x1 : Vec F S1x2048x20 .f32) (x2 : Vec F S1x2048x256 .f32) (x3 : Vec F S1x2048x256 .f32) :
    out0_A_4 c i a2 h2 a3 h3 a4 h4 a5 h5 a6 h6 a7 h7 hc0 hc1 x0 x1 x2 x3 = numStep x0 x1 x2 x3 zeroNum := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  sl_unfold_words
  rw [View.canon_cons_unit_zero (S := S1x256x20) zero3]
  simp only [View.readAt_eq_ld, View.readCov_unit_zero (S := S1x256x20) _ zero3, View.readCov_unit_zero (S := S256x1) _ zero2, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

/-- A middle tile: the column sum is the tile's step from what the tile before left. -/
theorem scratch_mid (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 i) (hc1 : ¬cond0_1 i) (x0 : Vec F S1x256x20 .f32) (x1 : Vec F S1x2048x20 .f32) (x2 : Vec F S1x2048x256 .f32) (x3 : Vec F S1x2048x256 .f32) (xo : Vec F S1x256x20 .f32) (xs : Vec F S256x1 .f32) :
    sout0_B_0 c i a2 h2 a3 h3 a4 h4 a5 h5 a6 h6 a7 h7 hc0 hc1 x0 x1 x2 x3 xo xs = colStep x0 x1 x2 x3 xs := by
  unfold sout0_B_0
  rw [View.read_writes_eq_canon _ _ _ (scover0_B_0 c i a2 h2 a3 h3 a4 h4 a5 h5 a6 h6 a7 h7 hc0 hc1 x0 x1 x2 x3 xo xs)]
  unfold kernelRun0_B
  dsimp only
  sl_unfold_words
  rw [View.canon_unit_zero zero2]
  simp only [View.readAt_eq_ld, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

/-- A middle tile: the numerator is the tile's step from what the tile before left. -/
theorem out_mid (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 i) (hc1 : ¬cond0_1 i) (x0 : Vec F S1x256x20 .f32) (x1 : Vec F S1x2048x20 .f32) (x2 : Vec F S1x2048x256 .f32) (x3 : Vec F S1x2048x256 .f32) (xo : Vec F S1x256x20 .f32) (xs : Vec F S256x1 .f32) :
    out0_B_4 c i a2 h2 a3 h3 a4 h4 a5 h5 a6 h6 a7 h7 hc0 hc1 x0 x1 x2 x3 xo xs = numStep x0 x1 x2 x3 xo := by
  unfold out0_B_4
  rw [View.read_writes_eq_canon _ _ _ (cover0_B_4 c i a2 h2 a3 h3 a4 h4 a5 h5 a6 h6 a7 h7 hc0 hc1 x0 x1 x2 x3 xo xs)]
  unfold kernelRun0_B
  dsimp only
  sl_unfold_words
  rw [View.canon_unit_zero zero3]
  simp only [View.readAt_eq_ld, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

/-- Last tile: the column sum is again the tile's step from what the tile before left. -/
theorem scratch_last (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 i) (hc1 : cond0_1 i) (x0 : Vec F S1x256x20 .f32) (x1 : Vec F S1x2048x20 .f32) (x2 : Vec F S1x2048x256 .f32) (x3 : Vec F S1x2048x256 .f32) (xo : Vec F S1x256x20 .f32) (xs : Vec F S256x1 .f32) :
    sout0_C_0 c i a2 h2 a3 h3 a4 h4 a5 h5 a6 h6 a7 h7 hc0 hc1 x0 x1 x2 x3 xo xs = colStep x0 x1 x2 x3 xs := by
  unfold sout0_C_0
  rw [View.read_writes_eq_canon _ _ _ (scover0_C_0 c i a2 h2 a3 h3 a4 h4 a5 h5 a6 h6 a7 h7 hc0 hc1 x0 x1 x2 x3 xo xs)]
  unfold kernelRun0_C
  dsimp only
  sl_unfold_words
  rw [View.canon_unit_zero zero2]
  simp only [View.readAt_eq_ld, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

/-- Last tile: the output block is the final numerator divided by the final clamped column sum. -/
theorem out_last (c : Dev nD) (i : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 i) (hc1 : cond0_1 i) (x0 : Vec F S1x256x20 .f32) (x1 : Vec F S1x2048x20 .f32) (x2 : Vec F S1x2048x256 .f32) (x3 : Vec F S1x2048x256 .f32) (xo : Vec F S1x256x20 .f32) (xs : Vec F S256x1 .f32) :
    out0_C_4 c i a2 h2 a3 h3 a4 h4 a5 h5 a6 h6 a7 h7 hc0 hc1 x0 x1 x2 x3 xo xs = finish (colStep x0 x1 x2 x3 xs) (numStep x0 x1 x2 x3 xo) := by
  unfold out0_C_4
  rw [View.read_writes_eq_canon _ _ _ (cover0_C_4 c i a2 h2 a3 h3 a4 h4 a5 h5 a6 h6 a7 h7 hc0 hc1 x0 x1 x2 x3 xo xs)]
  unfold kernelRun0_C
  dsimp only
  sl_unfold_words
  rw [View.canon_cons_unit_zero (S := S1x256x20) zero3]
  simp only [View.readAt_eq_ld, View.readCov_unit_zero (S := S1x256x20) _ zero3, View.readCov_unit_zero (S := S256x1) _ zero2, h2.read_unread, h3.read_unread, h4.read_unread, h5.read_unread, h6.read_unread, h7.read_unread, View.ld_unit_zero (S := S256x1) zero2, View.ld_unit_zero (S := S1x256x20) zero3, View.ld_unit_zero (S := S1x2048x20) zero3, View.ld_unit_zero (S := S1x2048x256) zero3]
  rfl

end Cert.KernelIdeal.Pieces

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«163917_j86466281603856_1_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.Spec.lean ====
/-
  The soft assignment and its weighted mean, as functions on the extended reals, and the law that joins the two
  ways of normalising.

  For one batch entry, a pixel with feature row f and a centre with row μ have the logit
  -((|f|² - 2·f·μ + |μ|²)·v + w) / 1, where v masks and w offsets the squared distance.  A pixel's soft assignment
  over the 256 centres is the softmax of its logits (the row maximum subtracted first).  The new centre k is
  Σ_n p(n,k)·f(n) divided by the column sum Σ_n p(n,k) clamped below at about 1e-12.

  One program divides the finished sum by the clamped column sum; the other divides every assignment by the clamped
  column sum of absolute values first and sums afterwards.  When every input is a real number the assignments are
  positive reals, the absolute values change nothing, the clamped column sum is a positive real c, and
  Σ_n (p n / c)·f n = (Σ_n p n·f n) / c is the distributive law over the reals (`normalise_sum`).
-/
import Idealize.ShloMosaic.PureOps.Ideal.Laws
import Idealize.ShloMosaic.Lib.ValueIdx
import proofs.«163917_j86466281603856_1_alg».proof.Proof.LibBatchNorm
import proofs.«163917_j86466281603856_1_alg».proof.Proof.LibSegmentSum
import proofs.«163917_j86466281603856_1_alg».proof.Proof.LibMaxReduce

noncomputable section

open scoped BigOperators

namespace Cert.SoftAssign

open Idealize.ShloMosaic Idealize.ShloMosaic.ValueIdx Cert.LibBatchNorm Cert.LibERealFinite

/-! ## The constants the two programs spell -/

/-- The f32 word of 2. -/
abbrev two : EReal := Ideal.ofBits .f32 0x40000000#32
/-- The f32 word of 1 (the softmax temperature's divisor). -/
abbrev one : EReal := Ideal.ofBits .f32 0x3F800000#32
/-- The f32 word of -∞ (the row maximum's start). -/
abbrev negInf : EReal := Ideal.ofBits .f32 0xFF800000#32
/-- The f32 word nearest 1e-12 (the column sum's lower clamp). -/
abbrev floorC : EReal := Ideal.ofBits .f32 0x2B8CBCCC#32

theorem two_eq : two = ((2 : ℝ) : EReal) := by
  simp [two, Ideal.ofBits, Ideal.ieee, -EReal.coe_mul] <;> norm_num

theorem one_eq : one = ((1 : ℝ) : EReal) := by
  simp [one, Ideal.ofBits, Ideal.ieee, -EReal.coe_mul] <;> norm_num

theorem negInf_eq : negInf = ⊥ := Cert.LibMaxReduce.ofBits_neg_inf

theorem floorC_pos : ∃ e : ℝ, 0 < e ∧ floorC = (e : EReal) := by
  refine ⟨(9223372 : ℝ) * (2 : ℝ) ^ (-63 : ℤ), by positivity, ?_⟩
  simp [floorC, Ideal.ofBits, Ideal.ieee, -EReal.coe_mul] <;> norm_num

/-! ## Logits, soft assignments, the new centres -/

/-- The logit of a pixel (feature row `f`, mask `v`, offset `w`) against a centre `μ`: minus the masked, offset squared
    distance `(|f|² - 2·f·μ + |μ|²)·v + w`, over the temperature's divisor. -/
def logit {D : ℕ} (f μ : Fin D → EReal) (v w : EReal) : EReal :=
  Ideal.div (-((((∑ d, f d * f d) - two * (∑ d, f d * μ d)) + (∑ d, μ d * μ d)) * v + w)) one

/-- A row's softmax: the exponentials of the logits less their maximum, over those exponentials' sum. -/
def softRow {K : ℕ} (z : Fin K → EReal) (k : Fin K) : EReal :=
  Ideal.div (Ideal.exp (z k - max negInf (⨆ j, z j))) (∑ j, Ideal.exp (z j - max negInf (⨆ j', z j')))

abbrev Centres : Type := (⟨3, ![8, 256, 20]⟩ : Shape).Idx → EReal
abbrev Features : Type := (⟨3, ![8, 16384, 20]⟩ : Shape).Idx → EReal
abbrev Pairs : Type := (⟨3, ![8, 16384, 256]⟩ : Shape).Idx → EReal

/-- The soft assignment of pixel `n` of batch entry `b` to centre `k`. -/
def post (μ : Centres) (x : Features) (v w : Pairs) (b : Fin 8) (n : Fin 16384) (k : Fin 256) : EReal :=
  softRow (fun k' => logit (fun d => x (ix3 b n d)) (fun d => μ (ix3 b k' d)) (v (ix3 b n k')) (w (ix3 b n k'))) k

/-- The new centres: the assignment-weighted feature sums over the clamped column sums of the assignments. -/
def newCentres (μ : Centres) (x : Features) (v w : Pairs) : Centres := fun i =>
  Ideal.div (∑ n, post μ x v w (i 0) n (i 1) * x (ix3 (i 0) n (i 2))) (max (∑ n, post μ x v w (i 0) n (i 1)) floorC)

theorem logit_def {D : ℕ} (f μ : Fin D → EReal) (v w : EReal) : logit f μ v w
    = Ideal.div (-((((∑ d, f d * f d) - two * (∑ d, f d * μ d)) + (∑ d, μ d * μ d)) * v + w)) one := rfl
theorem softRow_def {K : ℕ} (z : Fin K → EReal) (k : Fin K) : softRow z k
    = Ideal.div (Ideal.exp (z k - max negInf (⨆ j, z j))) (∑ j, Ideal.exp (z j - max negInf (⨆ j', z j'))) := rfl
theorem post_def (μ : Centres) (x : Features) (v w : Pairs) (b : Fin 8) (n : Fin 16384) (k : Fin 256) : post μ x v w b n k
    = softRow (fun k' => logit (fun d => x (ix3 b n d)) (fun d => μ (ix3 b k' d)) (v (ix3 b n k')) (w (ix3 b n k'))) k := rfl
theorem newCentres_apply (μ : Centres) (x : Features) (v w : Pairs) (b : Fin 8) (k : Fin 256) (d : Fin 20) :
    newCentres μ x v w (ix3 b k d)
      = Ideal.div (∑ n, post μ x v w b n k * x (ix3 b n d)) (max (∑ n, post μ x v w b n k) floorC) := rfl

/-! ## At real inputs everything is real, and the assignments are positive -/

/-- A logit of real data is real. -/
theorem logit_real {D : ℕ} {f μ : Fin D → EReal} {v w : EReal} (hf : ∀ d, IsReal (f d)) (hμ : ∀ d, IsReal (μ d))
    (hv : IsReal v) (hw : IsReal w) : IsReal (logit f μ v w) := by
  rw [logit_def]
  refine IsReal.div (IsReal.neg (IsReal.add (IsReal.mul (IsReal.add (IsReal.sub ?_ (IsReal.mul ?_ ?_)) ?_) hv) hw)) ?_ ?_
  · exact IsReal.sum_univ _ fun d => (hf d).mul (hf d)
  · rw [two_eq]; exact isReal_coe _
  · exact IsReal.sum_univ _ fun d => (hf d).mul (hμ d)
  · exact IsReal.sum_univ _ fun d => (hμ d).mul (hμ d)
  · rw [one_eq]; exact isReal_coe _
  · rw [one_eq]; exact EReal.coe_ne_zero.mpr one_ne_zero

/-- The supremum of finitely many reals, at least one, is one of them. -/
theorem iSup_coe_fin {K : ℕ} (hK : 0 < K) (z : Fin K → ℝ) : ∃ j0, (⨆ j, (z j : EReal)) = (z j0 : EReal) := by
  haveI : Nonempty (Fin K) := ⟨⟨0, hK⟩⟩
  obtain ⟨j0, hj0⟩ := Finite.exists_max z
  exact ⟨j0, le_antisymm (iSup_le fun j => EReal.coe_le_coe_iff.mpr (hj0 j)) (le_iSup (fun j => (z j : EReal)) j0)⟩

/-- A softmax of real logits, over at least one centre, is a positive real. -/
theorem softRow_pos {K : ℕ} (hK : 0 < K) (z : Fin K → EReal) (hz : ∀ j, IsReal (z j)) (k : Fin K) :
    ∃ r : ℝ, 0 < r ∧ softRow z k = (r : EReal) := by
  choose z' hz' using hz
  obtain rfl : z = fun j => (z' j : EReal) := funext hz'
  obtain ⟨j0, hj0⟩ := iSup_coe_fin hK z'
  haveI : Nonempty (Fin K) := ⟨⟨0, hK⟩⟩
  have hs : 0 < ∑ j, Real.exp (z' j - z' j0) := Finset.sum_pos (fun j _ => Real.exp_pos _) Finset.univ_nonempty
  refine ⟨Real.exp (z' k - z' j0) * (1 / ∑ j, Real.exp (z' j - z' j0)), mul_pos (Real.exp_pos _) (by positivity), ?_⟩
  rw [softRow_def]
  simp only [hj0, negInf_eq, bot_sup_eq, ← EReal.coe_sub, Ideal.exp_coe, ← coe_sum]
  exact div_coe_coe _ hs.ne'

/-- A soft assignment computed from real inputs is a positive real. -/
theorem post_pos {μ : Centres} {x : Features} {v w : Pairs} (hμ : ∀ i, IsReal (μ i)) (hx : ∀ i, IsReal (x i))
    (hv : ∀ i, IsReal (v i)) (hw : ∀ i, IsReal (w i)) (b : Fin 8) (n : Fin 16384) (k : Fin 256) :
    ∃ r : ℝ, 0 < r ∧ post μ x v w b n k = (r : EReal) :=
  softRow_pos (by norm_num) _ (fun k' => logit_real (fun d => hx _) (fun d => hμ _) (hv _) (hw _)) k

/-! ## Dividing before or after the sum -/

/-- The absolute value `max y (-y)` of a non-negative real is itself. -/
theorem abs_coe_of_nonneg {r : ℝ} (h : 0 ≤ r) : max (r : EReal) (-(r : EReal)) = (r : EReal) := by
  refine max_eq_left ?_
  rw [← EReal.coe_neg, EReal.coe_le_coe_iff]
  linarith

/-- The coercion of the reals commutes with `max`. -/
theorem coe_max' (a b : ℝ) : max (a : EReal) (b : EReal) = ((max a b : ℝ) : EReal) :=
  (EReal.coe_strictMono.monotone.map_max).symm

/-- **Normalising before the sum is normalising after it.** For non-negative real weights `p` and real values `f`:
    each weight divided by the clamped sum of the weights' absolute values, times its value, summed, is the weighted sum
    divided by the clamped sum of the weights. -/
theorem normalise_sum {N : ℕ} (p f : Fin N → EReal) (hp : ∀ n, ∃ r : ℝ, 0 ≤ r ∧ p n = (r : EReal))
    (hf : ∀ n, IsReal (f n)) :
    ∑ n, Ideal.div (p n) (max (∑ n', max (p n') (-(p n'))) floorC) * f n
      = Ideal.div (∑ n, p n * f n) (max (∑ n, p n) floorC) := by
  choose p' hp0 hp' using hp
  obtain rfl : p = fun n => (p' n : EReal) := funext hp'
  choose f' hf' using hf
  obtain rfl : f = fun n => (f' n : EReal) := funext hf'
  obtain ⟨e, he, hfl⟩ := floorC_pos
  have hc : 0 < max (∑ n, p' n) e := lt_max_of_lt_right he
  simp only [abs_coe_of_nonneg (hp0 _), hfl, ← coe_sum, coe_max', div_coe_coe _ hc.ne', ← EReal.coe_mul]
  rw [EReal.coe_eq_coe_iff, Finset.sum_mul]
  exact Finset.sum_congr rfl fun n _ => by ring

end Cert.SoftAssign

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.Payload.lean ====
/-
  One tile's arithmetic read at an index, on the extended reals.

  The tile's logits, their row maxima, the softmax, the column sums added to the running column sum, the
  assignment-weighted feature sums added to the running numerator, and the final division, each as a formula in the
  entries of the tile's four input blocks.
-/
import proofs.«163917_j86466281603856_1_alg».proof.Proof.Pieces
import proofs.«163917_j86466281603856_1_alg».proof.Proof.Spec
import proofs.«163917_j86466281603856_1_alg».proof.Proof.LibAxisSums
import proofs.«163917_j86466281603856_1_alg».proof.Proof.LibMaxReduce
import proofs.«163917_j86466281603856_1_alg».proof.Proof.LibColumnCast
import proofs.«163917_j86466281603856_1_alg».proof.Proof.LibColumnBroadcast
import proofs.«163917_j86466281603856_1_alg».proof.Proof.LibPlainMatmul
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.KernelIdeal.Pieces Cert.SoftAssign Idealize.ShloMosaic.ValueIdx
open scoped BigOperators

/-! ## Reductions and transposes at the tile's shapes

Each reduction or transpose is stated for an axis list given as a variable, with the equation that says which list it is
as the last hypothesis: the sum over the last axis, the sum over the first axis, the row maximum, the matrix transpose. -/

theorem sumRows_feat (y : FVec Ideal S2048x20 .f32) (l : List (Fin S2048x20.rank)) (h : S2048x20.Reduces l S2048)
    (hφ : FTy.f32 = FTy.f32 ∨ FTy.f32 = FTy.bf16) (hacc : (0x00000000#32 : BitVec 32) = 0x00000000#32) (r : Fin 2048) (hl : l = [1]) :
    multiReduction (F := Ideal) .add l S2048 y 0x00000000#32 h hφ hacc (ix1 r) = ∑ d : Fin 20, y (ix2 r d) := by
  subst hl; exact Cert.LibAxisSums.sum_last2_apply y h hφ hacc r

theorem sumRows_centres (y : FVec Ideal S256x20 .f32) (l : List (Fin S256x20.rank)) (h : S256x20.Reduces l S256)
    (hφ : FTy.f32 = FTy.f32 ∨ FTy.f32 = FTy.bf16) (hacc : (0x00000000#32 : BitVec 32) = 0x00000000#32) (k : Fin 256) (hl : l = [1]) :
    multiReduction (F := Ideal) .add l S256 y 0x00000000#32 h hφ hacc (ix1 k) = ∑ d : Fin 20, y (ix2 k d) := by
  subst hl; exact Cert.LibAxisSums.sum_last2_apply y h hφ hacc k

theorem sumRows_pairs (y : FVec Ideal S2048x256 .f32) (l : List (Fin S2048x256.rank)) (h : S2048x256.Reduces l S2048)
    (hφ : FTy.f32 = FTy.f32 ∨ FTy.f32 = FTy.bf16) (hacc : (0x00000000#32 : BitVec 32) = 0x00000000#32) (r : Fin 2048) (hl : l = [1]) :
    multiReduction (F := Ideal) .add l S2048 y 0x00000000#32 h hφ hacc (ix1 r) = ∑ j : Fin 256, y (ix2 r j) := by
  subst hl; exact Cert.LibAxisSums.sum_last2_apply y h hφ hacc r

theorem sumCols_pairs (y : FVec Ideal S2048x256 .f32) (l : List (Fin S2048x256.rank)) (h : S2048x256.Reduces l S256)
    (hφ : FTy.f32 = FTy.f32 ∨ FTy.f32 = FTy.bf16) (hacc : (0x00000000#32 : BitVec 32) = 0x00000000#32) (k : Fin 256) (hl : l = [0]) :
    multiReduction (F := Ideal) .add l S256 y 0x00000000#32 h hφ hacc (ix1 k) = ∑ r : Fin 2048, y (ix2 r k) := by
  subst hl; exact Cert.LibAxisSums.sum_first2_apply y h hφ hacc k

/-- A row maximum from -∞ is the supremum over the row. -/
theorem maxRows_pairs (y : FVec Ideal S2048x256 .f32) (h : S2048x256.Reduces [1] S2048) (hφ : FTy.f32 = FTy.f32 ∨ FTy.f32 = FTy.bf16)
    (hacc : (0xFF800000#32 : BitVec 32) = 0xFF800000#32) (r : Fin 2048) :
    multiReduction (F := Ideal) .maximumf [1] S2048 y 0xFF800000#32 h hφ hacc (ix1 r) = ⨆ j : Fin 256, y (ix2 r j) := by
  refine (Cert.LibMaxReduce.multiReduction_maximumf_sup y h hφ hacc (ix1 r)).trans ?_
  show (⨆ j : Fin 256, y (h.lift (ix1 r) j)) = _
  refine iSup_congr fun j => congrArg y (funext fun ax => Fin.ext ?_)
  match ax with
  | ⟨0, _⟩ => rfl
  | ⟨1, _⟩ => rfl

theorem transpose_centres (y : FVec Ideal S256x20 .bf16) (l : List (Fin S256x20.rank)) (h : S256x20.Transposes l S20x256)
    (c : Fin 20) (k : Fin 256) (hl : l = [1, 0]) : transpose S20x256 l y h (ix2 c k) = y (ix2 k c) := by
  subst hl; exact transpose_ix2_apply y h c k

theorem transpose_pairs (y : FVec Ideal S2048x256 .bf16) (l : List (Fin S2048x256.rank)) (h : S2048x256.Transposes l S256x2048)
    (k : Fin 256) (r : Fin 2048) (hl : l = [1, 0]) : transpose S256x2048 l y h (ix2 k r) = y (ix2 r k) := by
  subst hl; exact transpose_ix2_apply y h k r

theorem exp_apply {s : Shape} {φ : FTy} (a : FVec Ideal s φ) (i : s.Idx) : exp a i = Ideal.exp (a i) := rfl

theorem dot_logits : dot_S2048x20_S20x256_S2048x256_1_0_0_1_n_n = DotDims.plain 2048 20 256 := rfl
theorem dot_weighted : dot_S256x2048_S2048x20_S256x20_1_0_0_1_n_n = DotDims.plain 256 2048 20 := rfl

/-! ## The tile's values -/

variable (x0 : Vec Ideal S1x256x20 .f32) (x1 : Vec Ideal S1x2048x20 .f32) (x2 x3 : Vec Ideal S1x2048x256 .f32)

theorem feat_apply (r : Fin 2048) (d : Fin 20) : k0_pay7 x1 (ix2 r d) = x1 (ix3 0 r d) :=
  shapeCast_1ab_ab_apply x1 _ r d

theorem featNarrow_apply (r : Fin 2048) (d : Fin 20) : k0_pay8 x1 (ix2 r d) = x1 (ix3 0 r d) :=
  feat_apply x1 r d

/-- The tile's logit of row `r` against centre `k`. -/
def tileLogit (r : Fin 2048) (k : Fin 256) : EReal :=
  logit (fun d => x1 (ix3 0 r d)) (fun d => x0 (ix3 0 k d)) (x2 (ix3 0 r k)) (x3 (ix3 0 r k))

/-- The tile's soft assignment of row `r` to centre `k`. -/
def tilePost (r : Fin 2048) (k : Fin 256) : EReal := softRow (fun k' => tileLogit x0 x1 x2 x3 r k') k

theorem tileLogit_def (r : Fin 2048) (k : Fin 256) : tileLogit x0 x1 x2 x3 r k
    = logit (fun d => x1 (ix3 0 r d)) (fun d => x0 (ix3 0 k d)) (x2 (ix3 0 r k)) (x3 (ix3 0 r k)) := rfl
theorem tilePost_def (r : Fin 2048) (k : Fin 256) : tilePost x0 x1 x2 x3 r k
    = softRow (fun k' => tileLogit x0 x1 x2 x3 r k') k := rfl

theorem logits_apply (r : Fin 2048) (k : Fin 256) : k0_pay9 x0 x1 x2 x3 (ix2 r k) = tileLogit x0 x1 x2 x3 r k := by
  simp (disch := exact rfl) only [k0_pay9, k0_pay8, dot_logits, divf_apply, subf_apply, addf_apply, mulf_apply, broadcast_apply, truncf_apply,
    Cert.LibColumnBroadcast.broadcastTo_a1_ab_apply, broadcastTo_1b_ab_apply, Cert.LibColumnCast.shapeCast_a_a1_apply,
    shapeCast_a_1a_apply, sumRows_feat, sumRows_centres, matmul_plain_zero_apply, transpose_centres,
    shapeCast_1ab_ab_apply, feat_apply]
  rw [tileLogit_def, logit_def]
  simp (disch := exact rfl) only [Scalar.ofBits, Ideal.ofBits_def, Ideal.ofBits_zero_f32, zero_sub]

theorem rowMax_apply (r : Fin 2048) : k0_pay10 x0 x1 x2 x3 (ix1 r) = ⨆ k, tileLogit x0 x1 x2 x3 r k := by
  have e := fun h hφ hacc => maxRows_pairs (k0_pay9 x0 x1 x2 x3) h hφ hacc r
  unfold k0_pay10
  exact (e _ _ _).trans (iSup_congr fun k => logits_apply x0 x1 x2 x3 r k)

theorem rowStart_apply (r : Fin 2048) : k0_pay11 (F := Ideal) (ix1 r) = negInf := rfl

/-- The softmax stage, from any logits `z`, row maxima `mx` and starts `st`. -/
theorem softmax_apply (z : FVec Ideal S2048x256 .f32) (mx st : FVec Ideal S2048 .f32) (r : Fin 2048) (k : Fin 256) :
    k0_pay1 z mx st (ix2 r k)
      = Ideal.div (Ideal.exp (z (ix2 r k) - max (st (ix1 r)) (mx (ix1 r))))
          (∑ j : Fin 256, Ideal.exp (z (ix2 r j) - max (st (ix1 r)) (mx (ix1 r)))) := by
  simp (disch := exact rfl) only [k0_pay1, divf_apply, subf_apply, exp_apply, maximumf_apply,
    Cert.LibColumnBroadcast.broadcastTo_a1_ab_apply, Cert.LibColumnCast.shapeCast_a_a1_apply, sumRows_pairs]

theorem post_apply (r : Fin 2048) (k : Fin 256) :
    k0_pay1 (k0_pay9 x0 x1 x2 x3) (k0_pay10 x0 x1 x2 x3) k0_pay11 (ix2 r k) = tilePost x0 x1 x2 x3 r k := by
  rw [softmax_apply, tilePost_def, softRow_def]
  simp (disch := exact rfl) only [logits_apply, rowMax_apply, rowStart_apply]

/-- The column-sum step at an entry. -/
theorem colStep_apply (acc : Vec Ideal S256x1 .f32) (k : Fin 256) (u : Fin 1) :
    colStep x0 x1 x2 x3 acc (ix2 k u) = acc (ix2 k u) + ∑ r : Fin 2048, tilePost x0 x1 x2 x3 r k := by
  simp (disch := exact rfl) only [colStep, k0_pay2, shapeCast_self, addf_apply, Cert.LibColumnCast.shapeCast_a_a1_apply, sumCols_pairs, post_apply]

/-- The numerator step at an entry. -/
theorem numStep_apply (acc : Vec Ideal S1x256x20 .f32) (k : Fin 256) (d : Fin 20) :
    numStep x0 x1 x2 x3 acc (ix3 (0 : Fin 1) k d)
      = acc (ix3 (0 : Fin 1) k d) + ∑ r : Fin 2048, tilePost x0 x1 x2 x3 r k * x1 (ix3 0 r d) := by
  simp (disch := exact rfl) only [numStep, k0_pay3, dot_weighted, shapeCast_ab_1ab_apply, addf_apply, shapeCast_1ab_ab_apply, matmul_plain_zero_apply,
    transpose_pairs, truncf_apply, post_apply, featNarrow_apply]

/-- The final division at an entry. -/
theorem finish_apply (s : Vec Ideal S256x1 .f32) (o : Vec Ideal S1x256x20 .f32) (k : Fin 256) (d : Fin 20) :
    finish s o (ix3 (0 : Fin 1) k d) = Ideal.div (o (ix3 (0 : Fin 1) k d)) (max (s (ix2 k (0 : Fin 1))) floorC) := by
  simp (disch := exact rfl) only [finish, k0_pay4, shapeCast_ab_1ab_apply, divf_apply, shapeCast_1ab_ab_apply,
    Cert.LibColumnBroadcast.broadcastTo_a1_ab_apply, maximumf_apply, broadcast_apply]
  rfl

theorem zeroCol_apply (k : Fin 256) (u : Fin 1) : (zeroCol (F := Ideal)) (ix2 k u) = 0 := by
  simp (disch := exact rfl) only [zeroCol, k0_pay6, shapeCast_self, broadcast_apply]
  exact Ideal.ofBits_zero_f32

theorem zeroNum_apply (k : Fin 256) (d : Fin 20) : (zeroNum (F := Ideal)) (ix3 (0 : Fin 1) k d) = 0 := by
  simp (disch := exact rfl) only [zeroNum, k0_pay5, shapeCast_ab_1ab_apply, broadcast_apply]
  exact Ideal.ofBits_zero_f32

end Cert.KernelIdeal.Tile

end
-- ==== Proof.Steps.lean ====
/-
  From tiles to running sums.

  Tile i of batch entry b holds pixels 2048·i … 2048·i + 2047.  If the four input blocks of a grid point are that
  tile's slices of the arrays, the tile's soft assignments are the whole arrays' assignments at those pixels; so a
  running column sum that held the sum over the pixels below 2048·i holds, after the point's step, the sum over the
  pixels below 2048·i + 2048, and likewise the running numerator.  After the eighth tile both are the full sums over
  16384 pixels, and the last division gives the new centre.
-/
import proofs.«163917_j86466281603856_1_alg».proof.Proof.Payload
import proofs.«163917_j86466281603856_1_alg».proof.Proof.LibSegmentSum

noncomputable section

open Idealize.ShloMosaic Idealize.ShloMosaic.TcCoe Idealize.SL.Sem
open Idealize.ShloMosaic.Pipeline (Dat)

namespace Cert.KernelIdeal.Steps

open Cert.KernelIdeal Cert.KernelIdeal.Gen Cert.KernelIdeal.Pieces Cert.KernelIdeal.Tile Cert.SoftAssign
open Idealize.ShloMosaic.ValueIdx SegmentSum
open scoped BigOperators

variable (μ : Centres) (x : Features) (v w : Pairs)

/-- Pixel `r` of tile `i`. -/
def row (i : Fin 8) (r : Fin 2048) : Fin 16384 :=
  ⟨2048 * i.val + r.val, by have := i.isLt; have := r.isLt; omega⟩

/-- The column-sum term of centre `k` at pixel `n`. -/
def colTerm (b : Fin 8) (k : Fin 256) (n : Fin 16384) : EReal := post μ x v w b n k

/-- The numerator term of centre `k`, feature `d`, at pixel `n`. -/
def numTerm (b : Fin 8) (k : Fin 256) (d : Fin 20) (n : Fin 16384) : EReal := post μ x v w b n k * x (ix3 b n d)

/-- The four blocks are tile `i` of batch entry `b`. -/
structure IsTile (b i : Fin 8) (x0 : Vec Ideal S1x256x20 .f32) (x1 : Vec Ideal S1x2048x20 .f32)
    (x2 x3 : Vec Ideal S1x2048x256 .f32) : Prop where
  centres : ∀ (k : Fin 256) (d : Fin 20), x0 (ix3 (0 : Fin 1) k d) = μ (ix3 b k d)
  feats : ∀ (r : Fin 2048) (d : Fin 20), x1 (ix3 (0 : Fin 1) r d) = x (ix3 b (row i r) d)
  mask : ∀ (r : Fin 2048) (k : Fin 256), x2 (ix3 (0 : Fin 1) r k) = v (ix3 b (row i r) k)
  offs : ∀ (r : Fin 2048) (k : Fin 256), x3 (ix3 (0 : Fin 1) r k) = w (ix3 b (row i r) k)

variable {μ x v w} {b i : Fin 8} {x0 : Vec Ideal S1x256x20 .f32} {x1 : Vec Ideal S1x2048x20 .f32}
  {x2 x3 : Vec Ideal S1x2048x256 .f32}

/-- The tile's assignments are the arrays' assignments at the tile's pixels. -/
theorem tilePost_eq (h : IsTile μ x v w b i x0 x1 x2 x3) (r : Fin 2048) (k : Fin 256) :
    tilePost x0 x1 x2 x3 r k = post μ x v w b (row i r) k := by
  simp only [tilePost_def, tileLogit_def, post_def, h.centres, h.feats, h.mask, h.offs]

/-- One step of the running column sum. -/
theorem col_step (h : IsTile μ x v w b i x0 x1 x2 x3) (acc : Vec Ideal S256x1 .f32)
    (hacc : ∀ (k : Fin 256) (u : Fin 1), acc (ix2 k u) = segSum (colTerm μ x v w b k) (2048 * i.val))
    (k : Fin 256) (u : Fin 1) :
    colStep x0 x1 x2 x3 acc (ix2 k u) = segSum (colTerm μ x v w b k) (2048 * i.val + 2048) := by
  rw [colStep_apply, hacc, segSum_add _ _ _ (by have := i.isLt; omega)]
  refine congrArg _ (Finset.sum_congr rfl fun r _ => ?_)
  rw [tilePost_eq h]
  rfl

/-- One step of the running numerator. -/
theorem num_step (h : IsTile μ x v w b i x0 x1 x2 x3) (acc : Vec Ideal S1x256x20 .f32)
    (hacc : ∀ (k : Fin 256) (d : Fin 20), acc (ix3 (0 : Fin 1) k d) = segSum (numTerm μ x v w b k d) (2048 * i.val))
    (k : Fin 256) (d : Fin 20) :
    numStep x0 x1 x2 x3 acc (ix3 (0 : Fin 1) k d) = segSum (numTerm μ x v w b k d) (2048 * i.val + 2048) := by
  rw [numStep_apply, hacc, segSum_add _ _ _ (by have := i.isLt; omega)]
  refine congrArg _ (Finset.sum_congr rfl fun r _ => ?_)
  rw [tilePost_eq h, h.feats]
  rfl

/-- The zero column is the empty column sum. -/
theorem zeroCol_seg (b : Fin 8) (k : Fin 256) (u : Fin 1) :
    (zeroCol (F := Ideal)) (ix2 k u) = segSum (colTerm μ x v w b k) (2048 * 0) := by
  rw [zeroCol_apply, Nat.mul_zero, segSum_zero]

/-- The zero block is the empty numerator. -/
theorem zeroNum_seg (b : Fin 8) (k : Fin 256) (d : Fin 20) :
    (zeroNum (F := Ideal)) (ix3 (0 : Fin 1) k d) = segSum (numTerm μ x v w b k d) (2048 * 0) := by
  rw [zeroNum_apply, Nat.mul_zero, segSum_zero]

/-- The last division, of the full sums, is the new centre. -/
theorem finish_full (b : Fin 8) (s : Vec Ideal S256x1 .f32) (o : Vec Ideal S1x256x20 .f32)
    (hs : ∀ (k : Fin 256) (u : Fin 1), s (ix2 k u) = segSum (colTerm μ x v w b k) 16384)
    (ho : ∀ (k : Fin 256) (d : Fin 20), o (ix3 (0 : Fin 1) k d) = segSum (numTerm μ x v w b k d) 16384)
    (k : Fin 256) (d : Fin 20) :
    finish s o (ix3 (0 : Fin 1) k d) = newCentres μ x v w (ix3 b k d) := by
  rw [finish_apply, hs, ho, segSum_all, segSum_all, newCentres_apply]
  rfl

end Cert.KernelIdeal.Steps

end
-- ==== Proof.Blocks.lean ====
/-
  The blocks a grid point is handed.

  Grid point t = 8·b + i works on batch entry b and tile i.  The centres' window gives it all 256 centres of entry b;
  the features', the mask's and the offsets' windows give it rows 2048·i … 2048·i + 2047 of entry b.  So the point's
  four input blocks are tile i of entry b.
-/
import proofs.«163917_j86466281603856_1_alg».proof.Proof.Steps
import proofs.«163917_j86466281603856_1_alg».proof.Proof.Gen.KernelIdeal.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Steps Cert.SoftAssign
open Idealize.ShloMosaic.ValueIdx

variable (m : (ℓ : Loc nD τ sig) → Buf (Elt Ideal) ℓ)

/-- Where each window's block sits, per grid point: decided once over the 64 points. -/
theorem index_centres : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)
theorem index_feats : ∀ t : Fin cfg0.N, win0_1.index t (0 : Fin 3) = t.val / 8 ∧ win0_1.index t (1 : Fin 3) = t.val % 8 ∧ win0_1.index t (2 : Fin 3) = 0 :=
  (by decide +kernel : ∀ t : Fin grid0.N, win0_1.index t (0 : Fin 3) = t.val / 8 ∧ win0_1.index t (1 : Fin 3) = t.val % 8 ∧ win0_1.index t (2 : Fin 3) = 0)
theorem index_mask : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)
theorem index_offs : ∀ t : Fin cfg0.N, win0_3.index t (0 : Fin 3) = t.val / 8 ∧ win0_3.index t (1 : Fin 3) = t.val % 8 ∧ win0_3.index t (2 : Fin 3) = 0 :=
  (by decide +kernel : ∀ t : Fin grid0.N, win0_3.index t (0 : Fin 3) = t.val / 8 ∧ win0_3.index t (1 : Fin 3) = t.val % 8 ∧ win0_3.index t (2 : Fin 3) = 0)
theorem index_out : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

variable (c : Dev nD) (t : Fin cfg0.N) (b i : Fin 8) (ht : t.val = 8 * b.val + i.val)
include ht

theorem centres_block (k : Fin 256) (d : Fin 20) :
    (iblk m c 0 t : Vec Ideal S1x256x20 .f32) (ix3 (0 : Fin 1) k d) = m ((c : Thread nD τ).loc main_arg0) (ix3 b k d) := by
  obtain ⟨h0, h1, h2⟩ := index_centres t
  have hi := i.isLt
  unfold iblk
  rw [View.read_apply]
  show V m c main_arg0 _ = m ((c : Thread nD τ).loc main_arg0) _
  show m ((c : Thread nD τ).loc main_arg0) _ = m ((c : Thread nD τ).loc main_arg0) _
  congr 1
  funext a
  apply Fin.ext
  match a with
  | ⟨0, _⟩ => show win0_0.index t 0 * 1 + 1 * 0 = b.val; rw [h0]; omega
  | ⟨1, _⟩ => show win0_0.index t 1 * 256 + 1 * k.val = k.val; rw [h1]; omega
  | ⟨2, _⟩ => show win0_0.index t 2 * 20 + 1 * d.val = d.val; rw [h2]; omega

theorem feats_block (r : Fin 2048) (d : Fin 20) :
    (iblk m c 1 t : Vec Ideal S1x2048x20 .f32) (ix3 (0 : Fin 1) r d) = m ((c : Thread nD τ).loc main_arg1) (ix3 b (row i r) d) := by
  obtain ⟨h0, h1, h2⟩ := index_feats t
  have hi := i.isLt
  unfold iblk
  rw [View.read_apply]
  show V m c main_arg1 _ = m ((c : Thread nD τ).loc main_arg1) _
  show m ((c : Thread nD τ).loc main_arg1) _ = m ((c : Thread nD τ).loc main_arg1) _
  congr 1
  funext a
  apply Fin.ext
  match a with
  | ⟨0, _⟩ => show win0_1.index t 0 * 1 + 1 * 0 = b.val; rw [h0]; omega
  | ⟨1, _⟩ => show win0_1.index t 1 * 2048 + 1 * r.val = 2048 * i.val + r.val; rw [h1]; omega
  | ⟨2, _⟩ => show win0_1.index t 2 * 20 + 1 * d.val = d.val; rw [h2]; omega

theorem mask_block (r : Fin 2048) (k : Fin 256) :
    (iblk m c 2 t : Vec Ideal S1x2048x256 .f32) (ix3 (0 : Fin 1) r k) = m ((c : Thread nD τ).loc main_arg2) (ix3 b (row i r) k) := by
  obtain ⟨h0, h1, h2⟩ := index_mask t
  have hi := i.isLt
  unfold iblk
  rw [View.read_apply]
  show V m c main_arg2 _ = m ((c : Thread nD τ).loc main_arg2) _
  show m ((c : Thread nD τ).loc main_arg2) _ = m ((c : Thread nD τ).loc main_arg2) _
  congr 1
  funext a
  apply Fin.ext
  match a with
  | ⟨0, _⟩ => show win0_2.index t 0 * 1 + 1 * 0 = b.val; rw [h0]; omega
  | ⟨1, _⟩ => show win0_2.index t 1 * 2048 + 1 * r.val = 2048 * i.val + r.val; rw [h1]; omega
  | ⟨2, _⟩ => show win0_2.index t 2 * 256 + 1 * k.val = k.val; rw [h2]; omega

theorem offs_block (r : Fin 2048) (k : Fin 256) :
    (iblk m c 3 t : Vec Ideal S1x2048x256 .f32) (ix3 (0 : Fin 1) r k) = m ((c : Thread nD τ).loc main_arg3) (ix3 b (row i r) k) := by
  obtain ⟨h0, h1, h2⟩ := index_offs t
  have hi := i.isLt
  unfold iblk
  rw [View.read_apply]
  show V m c main_arg3 _ = m ((c : Thread nD τ).loc main_arg3) _
  show m ((c : Thread nD τ).loc main_arg3) _ = m ((c : Thread nD τ).loc main_arg3) _
  congr 1
  funext a
  apply Fin.ext
  match a with
  | ⟨0, _⟩ => show win0_3.index t 0 * 1 + 1 * 0 = b.val; rw [h0]; omega
  | ⟨1, _⟩ => show win0_3.index t 1 * 2048 + 1 * r.val = 2048 * i.val + r.val; rw [h1]; omega
  | ⟨2, _⟩ => show win0_3.index t 2 * 256 + 1 * k.val = k.val; rw [h2]; omega

/-- The point's four input blocks are tile `i` of batch entry `b` of the argument arrays. -/
theorem isTile : IsTile (m ((c : Thread nD τ).loc main_arg0)) (m ((c : Thread nD τ).loc main_arg1))
    (m ((c : Thread nD τ).loc main_arg2)) (m ((c : Thread nD τ).loc main_arg3)) b i
    (iblk m c 0 t) (iblk m c 1 t) (iblk m c 2 t) (iblk m c 3 t) :=
  ⟨centres_block m c t b i ht, feats_block m c t b i ht, mask_block m c t b i ht, offs_block m c t b i ht⟩

end Cert.KernelIdeal.Blocks

end
-- ==== Proof.Invariant.lean ====
/-
  What the output block and the running column sum hold after every grid point, and hence the result array.

  After the point that handles tile i of batch entry b, the running column sum of centre k is the sum of the soft
  assignments to k over the pixels below 2048·(i+1), and the output block, for i < 7, the assignment-weighted feature
  sum over the same pixels; after the eighth tile the output block is the new centres of entry b, which is what the one
  write-back of that entry stores.  The proof is an induction over the 64 grid points in the order the grid runs.
-/
import proofs.«163917_j86466281603856_1_alg».proof.Proof.Blocks

noncomputable section

open Idealize.ShloMosaic Idealize.ShloMosaic.TcCoe Idealize.SL.Sem
open Idealize.ShloMosaic.Pipeline (Dat)

namespace Cert.KernelIdeal.Centres

open Cert.KernelIdeal Cert.KernelIdeal.Gen Cert.KernelIdeal.Pieces Cert.KernelIdeal.Steps Cert.KernelIdeal.Blocks
open Cert.SoftAssign Idealize.ShloMosaic.ValueIdx SegmentSum

/-! ## The three control cases over variables -/

section Cases

variable {μ : Centres} {x : Features} {v w : Pairs} {b i : Fin 8}

theorem first_col (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : cond0_0 g) (hc1 : ¬cond0_1 g) (x0 : Vec Ideal S1x256x20 .f32) (x1 : Vec Ideal S1x2048x20 .f32) (x2 x3 : Vec Ideal S1x2048x256 .f32)
    (tile : IsTile μ x v w b i x0 x1 x2 x3) (hi : i.val = 0) (k : Fin 256) (u : Fin 1) :
    sout0_A_0 c g a2 h2 a3 h3 a4 h4 a5 h5 a6 h6 a7 h7 hc0 hc1 x0 x1 x2 x3 (ix2 k u) = segSum (colTerm μ x v w b k) (2048 * i.val + 2048) := by
  rw [scratch_first]
  exact col_step tile zeroCol (fun k u => by rw [hi]; exact zeroCol_seg b k u) k u

theorem first_num (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : cond0_0 g) (hc1 : ¬cond0_1 g) (x0 : Vec Ideal S1x256x20 .f32) (x1 : Vec Ideal S1x2048x20 .f32) (x2 x3 : Vec Ideal S1x2048x256 .f32)
    (tile : IsTile μ x v w b i x0 x1 x2 x3) (hi : i.val = 0) (k : Fin 256) (d : Fin 20) :
    out0_A_4 c g a2 h2 a3 h3 a4 h4 a5 h5 a6 h6 a7 h7 hc0 hc1 x0 x1 x2 x3 (ix3 (0 : Fin 1) k d) = segSum (numTerm μ x v w b k d) (2048 * i.val + 2048) := by
  rw [out_first]
  exact num_step tile zeroNum (fun k d => by rw [hi]; exact zeroNum_seg b k d) k d

theorem mid_col (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 g) (hc1 : ¬cond0_1 g) (x0 : Vec Ideal S1x256x20 .f32) (x1 : Vec Ideal S1x2048x20 .f32) (x2 x3 : Vec Ideal S1x2048x256 .f32)
    (xo : Vec Ideal S1x256x20 .f32) (xs : Vec Ideal S256x1 .f32) (tile : IsTile μ x v w b i x0 x1 x2 x3)
    (hxs : ∀ (k : Fin 256) (u : Fin 1), xs (ix2 k u) = segSum (colTerm μ x v w b k) (2048 * i.val)) (k : Fin 256) (u : Fin 1) :
    sout0_B_0 c g a2 h2 a3 h3 a4 h4 a5 h5 a6 h6 a7 h7 hc0 hc1 x0 x1 x2 x3 xo xs (ix2 k u) = segSum (colTerm μ x v w b k) (2048 * i.val + 2048) := by
  rw [scratch_mid]
  exact col_step tile xs hxs k u

theorem mid_num (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 g) (hc1 : ¬cond0_1 g) (x0 : Vec Ideal S1x256x20 .f32) (x1 : Vec Ideal S1x2048x20 .f32) (x2 x3 : Vec Ideal S1x2048x256 .f32)
    (xo : Vec Ideal S1x256x20 .f32) (xs : Vec Ideal S256x1 .f32) (tile : IsTile μ x v w b i x0 x1 x2 x3)
    (hxo : ∀ (k : Fin 256) (d : Fin 20), xo (ix3 (0 : Fin 1) k d) = segSum (numTerm μ x v w b k d) (2048 * i.val)) (k : Fin 256) (d : Fin 20) :
    out0_B_4 c g a2 h2 a3 h3 a4 h4 a5 h5 a6 h6 a7 h7 hc0 hc1 x0 x1 x2 x3 xo xs (ix3 (0 : Fin 1) k d) = segSum (numTerm μ x v w b k d) (2048 * i.val + 2048) := by
  rw [out_mid]
  exact num_step tile xo hxo k d

theorem last_col (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 g) (hc1 : cond0_1 g) (x0 : Vec Ideal S1x256x20 .f32) (x1 : Vec Ideal S1x2048x20 .f32) (x2 x3 : Vec Ideal S1x2048x256 .f32)
    (xo : Vec Ideal S1x256x20 .f32) (xs : Vec Ideal S256x1 .f32) (tile : IsTile μ x v w b i x0 x1 x2 x3)
    (hxs : ∀ (k : Fin 256) (u : Fin 1), xs (ix2 k u) = segSum (colTerm μ x v w b k) (2048 * i.val)) (k : Fin 256) (u : Fin 1) :
    sout0_C_0 c g a2 h2 a3 h3 a4 h4 a5 h5 a6 h6 a7 h7 hc0 hc1 x0 x1 x2 x3 xo xs (ix2 k u) = segSum (colTerm μ x v w b k) (2048 * i.val + 2048) := by
  rw [scratch_last]
  exact col_step tile xs hxs k u

theorem last_out (c : Dev nD) (g : grid0.Coords) (a2 : Memref sig .tc .vmem S1x256x20 .f32) (h2 : a2.IsWhole) (a3 : Memref sig .tc .vmem S1x2048x20 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x20 .f32) (h6 : a6.IsWhole) (a7 : Memref sig .tc .vmem S256x1 .f32) (h7 : a7.IsWhole) (hc0 : ¬cond0_0 g) (hc1 : cond0_1 g) (x0 : Vec Ideal S1x256x20 .f32) (x1 : Vec Ideal S1x2048x20 .f32) (x2 x3 : Vec Ideal S1x2048x256 .f32)
    (xo : Vec Ideal S1x256x20 .f32) (xs : Vec Ideal S256x1 .f32) (tile : IsTile μ x v w b i x0 x1 x2 x3) (hi : i.val = 7)
    (hxs : ∀ (k : Fin 256) (u : Fin 1), xs (ix2 k u) = segSum (colTerm μ x v w b k) (2048 * i.val))
    (hxo : ∀ (k : Fin 256) (d : Fin 20), xo (ix3 (0 : Fin 1) k d) = segSum (numTerm μ x v w b k d) (2048 * i.val)) (k : Fin 256) (d : Fin 20) :
    out0_C_4 c g a2 h2 a3 h3 a4 h4 a5 h5 a6 h6 a7 h7 hc0 hc1 x0 x1 x2 x3 xo xs (ix3 (0 : Fin 1) k d) = newCentres μ x v w (ix3 b k d) := by
  rw [out_last]
  refine finish_full b _ _ (fun k u => ?_) (fun k d => ?_) k d
  · rw [col_step tile xs hxs k u, hi]
  · rw [num_step tile xo hxo k d, hi]

end Cases

/-! ## The induction over the grid points -/

variable (m : (ℓ : Loc nD τ sig) → Buf (Elt Ideal) ℓ) (c : Dev nD)

/-- The argument arrays as the specification's types. -/
abbrev argμ : Centres := m ((c : Thread nD τ).loc main_arg0)
abbrev argx : Features := m ((c : Thread nD τ).loc main_arg1)
abbrev argv : Pairs := m ((c : Thread nD τ).loc main_arg2)
abbrev argw : Pairs := m ((c : Thread nD τ).loc main_arg3)

set_option maxHeartbeats 1600000 in
/-- The first tile of a batch entry. -/
theorem point_first (n : ℕ) (h : n < cfg0.N) (b i : Fin 8) (hn : n = 8 * b.val + i.val) (h0 : n % 8 = 0) :
    (∀ (k : Fin 256) (u : Fin 1), (outsAt0 m c n h).2 (ix2 k u)
        = segSum (colTerm (argμ m c) (argx m c) (argv m c) (argw m c) b k) (2048 * i.val + 2048))
    ∧ (i.val ≠ 7 → ∀ (k : Fin 256) (d : Fin 20), (outsAt0 m c n h).1 (ix3 (0 : Fin 1) k d)
        = segSum (numTerm (argμ m c) (argx m c) (argv m c) (argw m c) b k d) (2048 * i.val + 2048))
    ∧ (i.val = 7 → ∀ (k : Fin 256) (d : Fin 20), (outsAt0 m c n h).1 (ix3 (0 : Fin 1) k d)
        = newCentres (argμ m c) (argx m c) (argv m c) (argw m c) (ix3 b k d)) := by
  have hi := i.isLt
  have hi0 : i.val = 0 := by omega
  have h1 : ¬n % 8 = 7 := by omega
  have tile : IsTile (argμ m c) (argx m c) (argv m c) (argw m c) b i (iblk m c 0 ⟨n, h⟩) (iblk m c 1 ⟨n, h⟩) (iblk m c 2 ⟨n, h⟩) (iblk m c 3 ⟨n, h⟩) :=
    isTile m c ⟨n, h⟩ b i hn
  have e : outsAt0 m c n h = _ := outsAt0_A m c ⟨n, h⟩ h0 h1
  refine ⟨fun k u => ?_, fun _ k d => ?_, fun h7 => absurd h7 (by omega)⟩
  · exact (congrFun (congrArg Prod.snd e) (ix2 k u)).trans
      (first_col c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) tile hi0 k u)
  · exact (congrFun (congrArg Prod.fst e) (ix3 (0 : Fin 1) k d)).trans
      (first_num c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) tile hi0 k d)

set_option maxHeartbeats 1600000 in
/-- A middle tile, given what the tile before left. -/
theorem point_mid (n : ℕ) (h : n < cfg0.N) (b i : Fin 8) (hn : n = 8 * b.val + i.val) (h0 : ¬n % 8 = 0) (h1 : ¬n % 8 = 7)
    (hxs : ∀ (k : Fin 256) (u : Fin 1), (outsAt0 m c (n - 1) (Nat.lt_of_le_of_lt (Nat.sub_le _ _) h)).2 (ix2 k u)
          = segSum (colTerm (argμ m c) (argx m c) (argv m c) (argw m c) b k) (2048 * i.val))
    (hxo : ∀ (k : Fin 256) (d : Fin 20), (outsAt0 m c (n - 1) (Nat.lt_of_le_of_lt (Nat.sub_le _ _) h)).1 (ix3 (0 : Fin 1) k d)
          = segSum (numTerm (argμ m c) (argx m c) (argv m c) (argw m c) b k d) (2048 * i.val)) :
    (∀ (k : Fin 256) (u : Fin 1), (outsAt0 m c n h).2 (ix2 k u)
        = segSum (colTerm (argμ m c) (argx m c) (argv m c) (argw m c) b k) (2048 * i.val + 2048))
    ∧ (i.val ≠ 7 → ∀ (k : Fin 256) (d : Fin 20), (outsAt0 m c n h).1 (ix3 (0 : Fin 1) k d)
        = segSum (numTerm (argμ m c) (argx m c) (argv m c) (argw m c) b k d) (2048 * i.val + 2048))
    ∧ (i.val = 7 → ∀ (k : Fin 256) (d : Fin 20), (outsAt0 m c n h).1 (ix3 (0 : Fin 1) k d)
        = newCentres (argμ m c) (argx m c) (argv m c) (argw m c) (ix3 b k d)) := by
  have hi := i.isLt
  have hi7 : i.val ≠ 7 := by omega
  have tile : IsTile (argμ m c) (argx m c) (argv m c) (argw m c) b i (iblk m c 0 ⟨n, h⟩) (iblk m c 1 ⟨n, h⟩) (iblk m c 2 ⟨n, h⟩) (iblk m c 3 ⟨n, h⟩) :=
    isTile m c ⟨n, h⟩ b i hn
  have e : outsAt0 m c n h = _ := outsAt0_B m c ⟨n, h⟩ h0 h1
  refine ⟨fun k u => ?_, fun _ k d => ?_, fun h7 => absurd h7 hi7⟩
  · exact (congrFun (congrArg Prod.snd e) (ix2 k u)).trans
      (mid_col c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).1 (outsAt0 m c (n - 1) (Nat.lt_of_le_of_lt (Nat.sub_le _ _) h)).2 tile hxs k u)
  · exact (congrFun (congrArg Prod.fst e) (ix3 (0 : Fin 1) k d)).trans
      (mid_num c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).1 (outsAt0 m c (n - 1) (Nat.lt_of_le_of_lt (Nat.sub_le _ _) h)).2 tile hxo k d)

set_option maxHeartbeats 1600000 in
/-- The last tile, given what the tile before left. -/
theorem point_last (n : ℕ) (h : n < cfg0.N) (b i : Fin 8) (hn : n = 8 * b.val + i.val) (h0 : ¬n % 8 = 0) (h1 : n % 8 = 7)
    (hxs : ∀ (k : Fin 256) (u : Fin 1), (outsAt0 m c (n - 1) (Nat.lt_of_le_of_lt (Nat.sub_le _ _) h)).2 (ix2 k u)
          = segSum (colTerm (argμ m c) (argx m c) (argv m c) (argw m c) b k) (2048 * i.val))
    (hxo : ∀ (k : Fin 256) (d : Fin 20), (outsAt0 m c (n - 1) (Nat.lt_of_le_of_lt (Nat.sub_le _ _) h)).1 (ix3 (0 : Fin 1) k d)
          = segSum (numTerm (argμ m c) (argx m c) (argv m c) (argw m c) b k d) (2048 * i.val)) :
    (∀ (k : Fin 256) (u : Fin 1), (outsAt0 m c n h).2 (ix2 k u)
        = segSum (colTerm (argμ m c) (argx m c) (argv m c) (argw m c) b k) (2048 * i.val + 2048))
    ∧ (i.val ≠ 7 → ∀ (k : Fin 256) (d : Fin 20), (outsAt0 m c n h).1 (ix3 (0 : Fin 1) k d)
        = segSum (numTerm (argμ m c) (argx m c) (argv m c) (argw m c) b k d) (2048 * i.val + 2048))
    ∧ (i.val = 7 → ∀ (k : Fin 256) (d : Fin 20), (outsAt0 m c n h).1 (ix3 (0 : Fin 1) k d)
        = newCentres (argμ m c) (argx m c) (argv m c) (argw m c) (ix3 b k d)) := by
  have hi := i.isLt
  have hi7 : i.val = 7 := by omega
  have tile : IsTile (argμ m c) (argx m c) (argv m c) (argw m c) b i (iblk m c 0 ⟨n, h⟩) (iblk m c 1 ⟨n, h⟩) (iblk m c 2 ⟨n, h⟩) (iblk m c 3 ⟨n, h⟩) :=
    isTile m c ⟨n, h⟩ b i hn
  have e : outsAt0 m c n h = _ := outsAt0_C m c ⟨n, h⟩ h0 h1
  refine ⟨fun k u => ?_, fun hne => absurd hi7 hne, fun _ k d => ?_⟩
  · exact (congrFun (congrArg Prod.snd e) (ix2 k u)).trans
      (last_col c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).1 (outsAt0 m c (n - 1) (Nat.lt_of_le_of_lt (Nat.sub_le _ _) h)).2 tile hxs k u)
  · exact (congrFun (congrArg Prod.fst e) (ix3 (0 : Fin 1) k d)).trans
      (last_out c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).1 (outsAt0 m c (n - 1) (Nat.lt_of_le_of_lt (Nat.sub_le _ _) h)).2 tile hi7 hxs hxo k d)

/-- After every grid point, by induction in the grid's order. -/
theorem after_point : ∀ (n : ℕ) (h : n < cfg0.N) (b i : Fin 8), n = 8 * b.val + i.val →
    (∀ (k : Fin 256) (u : Fin 1), (outsAt0 m c n h).2 (ix2 k u)
        = segSum (colTerm (argμ m c) (argx m c) (argv m c) (argw m c) b k) (2048 * i.val + 2048))
    ∧ (i.val ≠ 7 → ∀ (k : Fin 256) (d : Fin 20), (outsAt0 m c n h).1 (ix3 (0 : Fin 1) k d)
        = segSum (numTerm (argμ m c) (argx m c) (argv m c) (argw m c) b k d) (2048 * i.val + 2048))
    ∧ (i.val = 7 → ∀ (k : Fin 256) (d : Fin 20), (outsAt0 m c n h).1 (ix3 (0 : Fin 1) k d)
        = newCentres (argμ m c) (argx m c) (argv m c) (argw m c) (ix3 b k d)) := by
  intro n
  induction n using Nat.strong_induction_on with
  | _ n ih =>
    intro h b i hn
    have hN : n < 64 := lt_of_lt_of_eq h (show cfg0.N = 64 from N_0)
    have hi := i.isLt
    by_cases h0 : n % 8 = 0
    · exact point_first m c n h b i hn h0
    · have hprev := ih (n - 1) (by omega) (Nat.lt_of_le_of_lt (Nat.sub_le _ _) h) b ⟨i.val - 1, by omega⟩
        (by show n - 1 = 8 * b.val + (i.val - 1); omega)
      have hseg : 2048 * (i.val - 1) + 2048 = 2048 * i.val := by omega
      have hxs : ∀ (k : Fin 256) (u : Fin 1), (outsAt0 m c (n - 1) (Nat.lt_of_le_of_lt (Nat.sub_le _ _) h)).2 (ix2 k u)
          = segSum (colTerm (argμ m c) (argx m c) (argv m c) (argw m c) b k) (2048 * i.val) := fun k u => by
        rw [hprev.1 k u]; exact congrArg _ hseg
      have hxo : ∀ (k : Fin 256) (d : Fin 20), (outsAt0 m c (n - 1) (Nat.lt_of_le_of_lt (Nat.sub_le _ _) h)).1 (ix3 (0 : Fin 1) k d)
          = segSum (numTerm (argμ m c) (argx m c) (argv m c) (argw m c) b k d) (2048 * i.val) := fun k d => by
        rw [hprev.2.1 (by show i.val - 1 ≠ 7; omega) k d]; exact congrArg _ hseg
      by_cases h1 : n % 8 = 7
      · exact point_last m c n h b i hn h0 h1 hxs hxo
      · exact point_mid m c n h b i hn h0 h1 hxs hxo

end Cert.KernelIdeal.Centres

end
-- ==== Proof.Result.lean ====
/-
  The kernel's result array.

  Batch entry b's output block is written back once, after its eighth tile, holding the new centres of entry b; the
  eight write-backs cover the result array; so the array ends as the new centres computed from the argument arrays.
-/
import proofs.«163917_j86466281603856_1_alg».proof.Proof.Invariant

noncomputable section

open Idealize.ShloMosaic Idealize.ShloMosaic.TcCoe Idealize.SL.Sem
open Idealize.ShloMosaic.Pipeline (Dat)

namespace Cert.KernelIdeal.Centres

open Cert.KernelIdeal Cert.KernelIdeal.Gen Cert.KernelIdeal.Steps Cert.KernelIdeal.Blocks
open Cert.SoftAssign Idealize.ShloMosaic.ValueIdx

variable (m : (ℓ : Loc nD τ sig) → Buf (Elt Ideal) ℓ) (ρ : Dev nD → PrngReg) (c : Dev nD)

/-- The new centres computed from the argument arrays as launched. -/
abbrev target : Centres := newCentres (argμ m c) (argx m c) (argv m c) (argw m c)

/-- After the eighth tile of entry `b` the output block holds entry `b`'s new centres. -/
theorem out_after_last (n : ℕ) (h : n < cfg0.N) (b : Fin 8) (hn : n = 8 * b.val + 7) (j : S1x256x20.Idx) :
    (outsAt0 m c n h).1 j = target m c (ix3 b (j 1) (j 2)) := by
  have hj : j = ix3 (0 : Fin 1) (j 1) (j 2) := by
    funext a
    match a with
    | ⟨0, _⟩ => exact Fin.ext (by have : (j 0).val < 1 := (j 0).isLt; show (j 0).val = 0; omega)
    | ⟨1, _⟩ => rfl
    | ⟨2, _⟩ => rfl
  exact (congrArg (outsAt0 m c n h).1 hj).trans ((after_point m c n h b ⟨7, by omega⟩ hn).2.2 rfl (j 1) (j 2))

/-- A block whose entry (·, k, d) is `G (b, k, d)` is what reading `G` through the output window's block of a point of
    batch entry `b` gives. -/
theorem block_read (G : S8x256x20.Idx → Elt Ideal .f32) (t : Fin cfg0.N) (X : Vec Ideal S1x256x20 .f32) (b : Fin 8)
    (hb : b.val = t.val / 8) (hX : ∀ j : S1x256x20.Idx, X j = G (ix3 b (j 1) (j 2))) :
    (cfg0.win 4).cut (grid0.coords t) X = ((cfg0.win 4).blk t).view.read (Elt Ideal) G := by
  obtain ⟨e0, e1, e2⟩ := index_out t
  funext j
  show X j = G (((cfg0.win 4).blk t).view.emb j)
  rw [hX]
  refine congrArg G (funext fun a => Fin.ext ?_)
  match a with
  | ⟨0, _⟩ => show b.val = win0_4.index t (0 : Fin 3) * 1 + 1 * (j 0).val; have : (j 0).val < 1 := (j 0).isLt; omega
  | ⟨1, _⟩ => show (j 1).val = win0_4.index t (1 : Fin 3) * 256 + 1 * (j 1).val; omega
  | ⟨2, _⟩ => show (j 2).val = win0_4.index t (2 : Fin 3) * 20 + 1 * (j 2).val; omega

/-- What a write-back of the output window writes is its block of the new centres. -/
theorem flushed_eq (t : Fin cfg0.N) (hf : (cfg0.win 4).flush t = true) :
    (dats m 0 c).flushed 4 t = ((cfg0.win 4).blk t).view.read (Elt Ideal) (target m c) := by
  have h7 : t.val % 8 = 7 := (flush0_4 t).mp hf
  have hN : t.val < 64 := lt_of_lt_of_eq t.isLt (show cfg0.N = 64 from N_0)
  rw [Value.flushed4]
  exact block_read (target m c) t _ ⟨t.val / 8, by omega⟩ rfl
    (fun j => out_after_last m c t.val t.isLt ⟨t.val / 8, by omega⟩ (by show t.val = 8 * (t.val / 8) + 7; omega) j)

/-- An index of the result array is in point `t`'s block iff each coordinate is in the block's range on its axis. -/
theorem mem_blk (t : Fin cfg0.N) (i : S8x256x20.Idx) :
    i ∈ ((cfg0.win 4).blk t).view.set ↔ ∀ a : Fin 3, win0_4.index t a * S1x256x20.size a ≤ (i a).val ∧ (i a).val < win0_4.index t a * S1x256x20.size a + S1x256x20.size a := by
  show i ∈ ((View.whole main_v0).slice (win0_4.rect t)).set ↔ _
  rw [View.set_slice_whole, Rect.mem_set_unit]
  exact Iff.rfl

/-- The result array after the run is the new centres. -/
theorem final : (dats m 0 c).arrAt 4 cfg0.N = target m c :=
  (dats m 0 c).arrAt_eq_of_cover 4 (target m c) (flushed_eq m c) fun i => by
    have hi0 : (i 0).val < 8 := (i 0).isLt
    have hi1 : (i 1).val < 256 := (i 1).isLt
    have hi2 : (i 2).val < 20 := (i 2).isLt
    have hN : cfg0.N = 64 := N_0
    refine ⟨⟨8 * (i 0).val + 7, by omega⟩, (flush0_4 _).mpr (by show (8 * (i 0).val + 7) % 8 = 7; omega), ?_⟩
    obtain ⟨e0, e1, e2⟩ := index_out ⟨8 * (i 0).val + 7, by omega⟩
    rw [mem_blk]
    intro a
    match a with
    | ⟨0, _⟩ => show win0_4.index ⟨8 * (i 0).val + 7, _⟩ (0 : Fin 3) * 1 ≤ (i 0).val ∧ (i 0).val < win0_4.index ⟨8 * (i 0).val + 7, _⟩ (0 : Fin 3) * 1 + 1
                rw [e0]; show (8 * (i 0).val + 7) / 8 * 1 ≤ (i 0).val ∧ (i 0).val < (8 * (i 0).val + 7) / 8 * 1 + 1; omega
    | ⟨1, _⟩ => show win0_4.index ⟨8 * (i 0).val + 7, _⟩ (1 : Fin 3) * 256 ≤ (i 1).val ∧ (i 1).val < win0_4.index ⟨8 * (i 0).val + 7, _⟩ (1 : Fin 3) * 256 + 256
                rw [e1]; omega
    | ⟨2, _⟩ => show win0_4.index ⟨8 * (i 0).val + 7, _⟩ (2 : Fin 3) * 20 ≤ (i 2).val ∧ (i 2).val < win0_4.index ⟨8 * (i 0).val + 7, _⟩ (2 : Fin 3) * 20 + 20
                rw [e2]; omega

/-- The kernel's run, read: the result array at the new centres, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Centres

end
-- ==== Proof.LibHostExtrema.lean ====
/-
  A host reduction by minimum or maximum, on the extended reals, over any set of axes.

  A one-operand host reduce whose body is the minimum and whose initial value is `+∞` gives, at a result index `j`,
  the infimum of the operand over the indices that drop to `j`; with the maximum and `-∞`, the supremum. Folding `min`
  from `⊤` (resp. `max` from `⊥`) over a finite set is the infimum (supremum) over the set.
-/
import Idealize.ShloMosaic.PureOps.Ideal.Laws

noncomputable section

namespace Cert.LibHostExtrema

open Idealize.ShloMosaic

/-- Folding `min` from `⊤` over a finite set is the infimum over the set. -/
theorem fold_min_top_finset {ι : Type*} (S : Finset ι) (f : ι → EReal) :
    S.fold min ⊤ f = ⨅ i ∈ S, f i := by
  refine eq_of_forall_le_iff fun z => ?_
  rw [Finset.le_fold_min, le_iInf₂_iff]
  exact ⟨fun h => h.2, fun h => ⟨le_top, h⟩⟩

/-- Folding `max` from `⊥` over a finite set is the supremum over the set. -/
theorem fold_max_bot_finset {ι : Type*} (S : Finset ι) (f : ι → EReal) :
    S.fold max ⊥ f = ⨆ i ∈ S, f i := by
  refine eq_of_forall_ge_iff fun z => ?_
  rw [Finset.fold_max_le, iSup₂_le_iff]
  exact ⟨fun h => h.2, fun h => ⟨bot_le, h⟩⟩

/-- A host min-reduce from `+∞`: at `j`, the infimum of the operand over the indices that drop to `j`. -/
theorem hostReduce_min_inf {s t u : Shape} {axes : List (Fin s.rank)} (x : s.Idx → EReal) (init : u.Idx → EReal)
    (h : s.ReducesTo axes t) (hu : 0 < u.numel) (hinit : init (Shape.Idx.first hu) = ⊤) (j : t.Idx) :
    Host.reduce (FloatOps.minimumf (F := Ideal) (φ := .f32)) x init h hu j = ⨅ (i : s.Idx) (_ : h.drop i = j), x i := by
  rw [Host.reduce_eq_fold, hinit]
  show (Finset.univ.filter fun i => h.drop i = j).fold min ⊤ x = _
  rw [fold_min_top_finset]
  refine iInf_congr fun i => ?_
  simp only [Finset.mem_filter, Finset.mem_univ, true_and]

/-- A host max-reduce from `-∞`: at `j`, the supremum of the operand over the indices that drop to `j`. -/
theorem hostReduce_max_sup {s t u : Shape} {axes : List (Fin s.rank)} (x : s.Idx → EReal) (init : u.Idx → EReal)
    (h : s.ReducesTo axes t) (hu : 0 < u.numel) (hinit : init (Shape.Idx.first hu) = ⊥) (j : t.Idx) :
    Host.reduce (FloatOps.maximumf (F := Ideal) (φ := .f32)) x init h hu j = ⨆ (i : s.Idx) (_ : h.drop i = j), x i := by
  rw [Host.reduce_eq_fold, hinit]
  show (Finset.univ.filter fun i => h.drop i = j).fold max ⊥ x = _
  rw [fold_max_bot_finset]
  refine iSup_congr fun i => ?_
  simp only [Finset.mem_filter, Finset.mem_univ, true_and]

end Cert.LibHostExtrema

end
-- ==== Proof.RefValue.lean ====
/-
  The reference, stage by stage, is the same soft assignment; its last stage divides before it sums.

  Each stage of the reference's program is read at an index (b, n, k): the squared norms, the product of features and
  centres, the logit, the row maximum, the exponentials and their sum, the soft assignment; then the column sums of
  absolute values clamped below, the quotient, and the contraction over the pixels.  At real inputs that last
  contraction equals the weighted sum divided afterwards.
-/
import proofs.«163917_j86466281603856_1_alg».proof.Proof.Gen.ReferenceIdeal.Read
import proofs.«163917_j86466281603856_1_alg».proof.Proof.Spec
import proofs.«163917_j86466281603856_1_alg».proof.Proof.LibHostExtrema

noncomputable section

open Idealize.ShloMosaic Idealize.ShloMosaic.TcCoe Idealize.SL.Sem
open Idealize.ShloMosaic.Pipeline (Dat)

namespace Cert.ReferenceIdeal.Centres

open Cert.ReferenceIdeal Cert.ReferenceIdeal.Gen Cert.ReferenceIdeal.Read Cert.SoftAssign Cert.LibBatchNorm
open Idealize.ShloMosaic.ValueIdx
open scoped BigOperators

variable (μ : Centres) (x : Features) (v w : Pairs)

/-- The features' squared norm, broadcast over the centres. -/
theorem featSq_apply (b : Fin 8) (n : Fin 16384) (k : Fin 256) :
    val_main_v8 (F := Ideal) x (ix3 b n k) = ∑ d : Fin 20, x (ix3 b n d) * x (ix3 b n d) := by
  have e : ∀ d : Fin 20, idx_main_v1 (idx_main_v5 (idx_main_v8 (ix3 b n k))) d = ix3 b n d := fun d => funext fun a => Fin.ext (by match a with | ⟨0, _⟩ => rfl | ⟨1, _⟩ => rfl | ⟨2, _⟩ => rfl)
  rw [val_main_v8_apply, val_main_v5_apply, val_main_v1_apply]
  simp only [e, val_main_v0_apply, val_main_cst_apply, Ideal.mulf_def, Ideal.ofBits_def, Ideal.ofBits_zero_f32, zero_add]

/-- The centres' squared norm, broadcast over the pixels. -/
theorem centreSq_apply (b : Fin 8) (n : Fin 16384) (k : Fin 256) :
    val_main_v11 (F := Ideal) μ (ix3 b n k) = ∑ d : Fin 20, μ (ix3 b k d) * μ (ix3 b k d) := by
  have e : ∀ d : Fin 20, idx_main_v3 (idx_main_v10 (idx_main_v11 (ix3 b n k))) d = ix3 b k d := fun d => funext fun a => Fin.ext (by match a with | ⟨0, _⟩ => rfl | ⟨1, _⟩ => rfl | ⟨2, _⟩ => rfl)
  rw [val_main_v11_apply, val_main_v10_apply, val_main_v3_apply]
  simp only [e, val_main_v2_apply, val_main_cst_0_apply, Ideal.mulf_def, Ideal.ofBits_def, Ideal.ofBits_zero_f32, zero_add]

/-- The product of a pixel's features with a centre. -/
theorem dot_apply (b : Fin 8) (n : Fin 16384) (k : Fin 256) :
    val_main_v4 (F := Ideal) μ x (ix3 b n k) = ∑ d : Fin 20, x (ix3 b n d) * μ (ix3 b k d) := by
  have el : ∀ d : Fin 20, lidx_main_v4 (ix3 b n k) d = ix3 b n d := fun d => funext fun a => Fin.ext (by match a with | ⟨0, _⟩ => rfl | ⟨1, _⟩ => rfl | ⟨2, _⟩ => rfl)
  have er : ∀ d : Fin 20, ridx_main_v4 (ix3 b n k) d = ix3 b k d := fun d => funext fun a => Fin.ext (by match a with | ⟨0, _⟩ => rfl | ⟨1, _⟩ => rfl | ⟨2, _⟩ => rfl)
  rw [val_main_v4_apply]
  simp only [el, er]

/-- The logit. -/
theorem logit_apply (b : Fin 8) (n : Fin 16384) (k : Fin 256) :
    val_main_v17 (F := Ideal) μ x v w (ix3 b n k)
      = logit (fun d => x (ix3 b n d)) (fun d => μ (ix3 b k d)) (v (ix3 b n k)) (w (ix3 b n k)) := by
  rw [val_main_v17_apply, val_main_v15_apply, val_main_v14_apply, val_main_v13_apply, val_main_v12_apply, val_main_v9_apply,
    val_main_v7_apply, val_main_v6_apply, val_main_v16_apply, featSq_apply, centreSq_apply, dot_apply, logit_def]
  simp only [val_main_cst_1_apply, val_main_cst_2_apply, Ideal.hostDivf_def, Ideal.hostNegf_def, Ideal.negf_def, Ideal.addf_def,
    Ideal.mulf_def, Ideal.subf_def, Ideal.ofBits_def]

/-- Dropping the last coordinate. -/
theorem drop_ix3 (b : Fin 8) (n : Fin 16384) (k : Fin 256) :
    reducesTo_S8x16384x256_S8x16384_d2.drop (ix3 b n k) = ix2 b n := funext fun a => Fin.ext (by match a with | ⟨0, _⟩ => rfl | ⟨1, _⟩ => rfl)

/-- The row maximum: the supremum of the logits over the centres, started from -∞. -/
theorem rowMax_apply (b : Fin 8) (n : Fin 16384) :
    val_main_v20 (F := Ideal) μ x v w (ix2 b n)
      = max negInf (⨆ k : Fin 256, val_main_v17 (F := Ideal) μ x v w (ix3 b n k)) := by
  rw [val_main_v20_apply, val_main_v19_apply, val_main_cst_4_apply]
  refine congrArg (max negInf) ?_
  unfold val_main_v18
  generalize val_main_v17 (F := Ideal) μ x v w = y
  rw [Cert.LibHostExtrema.hostReduce_max_sup y _ reducesTo_S8x16384x256_S8x16384_d2 h_S_
    (by rw [val_main_cst_3_apply]; exact negInf_eq) (ix2 b n)]
  refine le_antisymm (iSup₂_le fun i hi => ?_) (iSup_le fun k => le_iSup₂ (f := fun i _ => y i) (ix3 b n k) (drop_ix3 b n k))
  have h0 : i 0 = b := congrFun hi 0
  have h1 : i 1 = n := congrFun hi 1
  have hi' : i = ix3 b n (i 2) := by rw [← h0, ← h1]; exact eq_ix3 i
  rw [hi']
  exact le_iSup (fun k : Fin 256 => y (ix3 b n k)) (i 2)

/-- The exponential of a logit less its row's maximum. -/
theorem expo_apply (b : Fin 8) (n : Fin 16384) (k : Fin 256) :
    val_main_v24 (F := Ideal) μ x v w (ix3 b n k)
      = Ideal.exp (val_main_v17 (F := Ideal) μ x v w (ix3 b n k)
          - max negInf (⨆ j : Fin 256, val_main_v17 (F := Ideal) μ x v w (ix3 b n j))) := by
  have e : idx_main_v21 (idx_main_v22 (ix3 b n k)) = ix2 b n := funext fun a => Fin.ext (by match a with | ⟨0, _⟩ => rfl | ⟨1, _⟩ => rfl)
  rw [val_main_v24_apply, val_main_v23_apply, val_main_v22_apply, val_main_v21_apply, e, rowMax_apply]
  simp only [Ideal.hostUnary_exp_def, Ideal.subf_def]

/-- The row's sum of exponentials, broadcast over the centres. -/
theorem expoSum_apply (b : Fin 8) (n : Fin 16384) (k : Fin 256) :
    val_main_v27 (F := Ideal) μ x v w (ix3 b n k) = ∑ j : Fin 256, val_main_v24 (F := Ideal) μ x v w (ix3 b n j) := by
  have e : ∀ j : Fin 256, idx_main_v25 (idx_main_v26 (idx_main_v27 (ix3 b n k))) j = ix3 b n j := fun j => funext fun a => Fin.ext (by match a with | ⟨0, _⟩ => rfl | ⟨1, _⟩ => rfl | ⟨2, _⟩ => rfl)
  rw [val_main_v27_apply, val_main_v26_apply, val_main_v25_apply]
  simp only [e, val_main_cst_5_apply, Ideal.ofBits_def, Ideal.ofBits_zero_f32, zero_add]

/-- The soft assignment. -/
theorem post_apply (b : Fin 8) (n : Fin 16384) (k : Fin 256) :
    val_main_v28 (F := Ideal) μ x v w (ix3 b n k) = post μ x v w b n k := by
  rw [val_main_v28_apply, expoSum_apply, post_def, softRow_def]
  simp only [expo_apply, logit_apply, Ideal.hostDivf_def]

/-- The clamped column sum of absolute values, broadcast over the pixels. -/
theorem colNorm_apply (b : Fin 8) (n : Fin 16384) (k : Fin 256) :
    val_main_v34 (F := Ideal) μ x v w (ix3 b n k)
      = max (∑ n' : Fin 16384, max (post μ x v w b n' k) (-(post μ x v w b n' k))) floorC := by
  have e : ∀ n' : Fin 16384, idx_main_v30 (idx_main_v31 (idx_main_v34 (ix3 b n k))) n' = ix3 b n' k := fun n' => funext fun a => Fin.ext (by match a with | ⟨0, _⟩ => rfl | ⟨1, _⟩ => rfl | ⟨2, _⟩ => rfl)
  rw [val_main_v34_apply, val_main_v33_apply, val_main_v31_apply, val_main_v30_apply, val_main_v32_apply]
  simp only [e, val_main_v29_apply, post_apply, val_main_cst_6_apply, val_main_cst_7_apply, Ideal.hostAbsf_def,
    Ideal.ofBits_def, Ideal.ofBits_zero_f32, zero_add, Ideal.maximumf_def]
  rfl

/-- The reference's result at an entry: every assignment divided by its centre's clamped column sum, times the pixel's
    feature, summed over the pixels. -/
theorem result_apply (b : Fin 8) (k : Fin 256) (d : Fin 20) :
    val_main_v36 (F := Ideal) μ x v w (ix3 b k d)
      = ∑ n : Fin 16384, Ideal.div (post μ x v w b n k)
          (max (∑ n' : Fin 16384, max (post μ x v w b n' k) (-(post μ x v w b n' k))) floorC) * x (ix3 b n d) := by
  have el : ∀ n : Fin 16384, lidx_main_v36 (ix3 b k d) n = ix3 b n k := fun n => funext fun a => Fin.ext (by match a with | ⟨0, _⟩ => rfl | ⟨1, _⟩ => rfl | ⟨2, _⟩ => rfl)
  have er : ∀ n : Fin 16384, ridx_main_v36 (ix3 b k d) n = ix3 b n d := fun n => funext fun a => Fin.ext (by match a with | ⟨0, _⟩ => rfl | ⟨1, _⟩ => rfl | ⟨2, _⟩ => rfl)
  rw [val_main_v36_apply]
  simp only [el, er, val_main_v35_apply, post_apply, colNorm_apply, Ideal.hostDivf_def]

/-- **At real inputs the reference computes the new centres.** -/
theorem result_eq (hμ : ∀ i, IsReal (μ i)) (hx : ∀ i, IsReal (x i)) (hv : ∀ i, IsReal (v i)) (hw : ∀ i, IsReal (w i)) :
    val_main_v36 (F := Ideal) μ x v w = newCentres μ x v w := by
  funext i
  obtain ⟨b, k, d, rfl⟩ : ∃ (b : Fin 8) (k : Fin 256) (d : Fin 20), i = ix3 b k d := ⟨i 0, i 1, i 2, eq_ix3 i⟩
  rw [result_apply, newCentres_apply]
  exact normalise_sum (fun n => post μ x v w b n k) (fun n => x (ix3 b n d))
    (fun n => by obtain ⟨r, hr, e⟩ := post_pos hμ hx hv hw b n k; exact ⟨r, hr.le, e⟩) (fun n => hx _)

end Cert.ReferenceIdeal.Centres

end
-- ==== Proof.Finite.lean ====
/-
  Finite inputs are real.

  The precondition says of every entry y of the four argument arrays that |y| = max y (-y) compares strictly below +∞,
  all these comparisons joined by `and`.  So every entry is a real number.
-/
import proofs.«163917_j86466281603856_1_alg».proof.Pre_finite_inputs
import proofs.«163917_j86466281603856_1_alg».proof.Proof.LibBatchNorm
import Idealize.ShloMosaic.Lib.ReduceAll
import Idealize.ShloMosaic.Lib.Affine
import Idealize.ShloMosaic.Lib.ValueIdx

noncomputable section

open Idealize.ShloMosaic Idealize.ShloMosaic.TcCoe Idealize.SL.Sem

namespace Cert.Pre_finite_inputs.Real

open Cert.Pre_finite_inputs Cert.LibBatchNorm Cert.LibERealFinite Idealize.ShloMosaic.ValueIdx

variable [Cert.Pre_finite_inputs.Facts]

instance : Subsingleton S_.Idx := ⟨fun a b => funext fun d => d.elim0⟩

/-- One array: if all its entries' absolute values compare below the bound +∞, each entry is real. -/
theorem real_of_all {s : Shape} {axes : List (Fin s.rank)} (a bnd : FVec Ideal s .f32)
    (hbnd : ∀ i, bnd i = Ideal.ofBits .f32 0x7F800000#32) (init : IVec S_ 1) (h : s.ReducesTo axes S_) (hu : 0 < S_.numel)
    (e : Host.reduce IntOp.andi (cmpf .olt (Host.absf a) bnd) init h hu ix0 = 1#1) (i : s.Idx) : IsReal (a i) := by
  have hi := Host.reduce_andi_all _ init h hu ix0 e i
  refine real_of_abs_lt (a i) ?_
  rw [← hbnd i]
  exact hi

theorem all_real (a0 : FVec Ideal S8x256x20 .f32) (a1 : FVec Ideal S8x16384x20 .f32) (a2 a3 : FVec Ideal S8x16384x256 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have e := congrFun h ix0
  dsimp only [fn, fn_part1] at e
  simp only [show ∀ (p q : IVec S_ 1) (j : S_.Idx), andi p q j = IntOp.andi (p j) (q j) from fun _ _ _ => rfl,
    IntOp.andi_eq_one] at e
  obtain ⟨⟨⟨e0, e1⟩, e2⟩, e3⟩ := e
  exact ⟨real_of_all a0 _ (fun _ => rfl) _ _ _ e0, real_of_all a1 _ (fun _ => rfl) _ _ _ e1,
    real_of_all a2 _ (fun _ => rfl) _ _ _ e2, real_of_all a3 _ (fun _ => rfl) _ _ _ e3⟩

end Cert.Pre_finite_inputs.Real

end
-- ==== Proof.lean ====
/-
  The claims of this certificate, assembled.

  The kernel makes one pass over the pixels of each batch entry: tile by tile it forms the soft assignments of the
  tile's pixels to the 256 centres (a softmax of minus the masked, offset squared distances), adds their column sums
  and their assignment-weighted feature sums to two running values, and after the last tile divides the weighted sums
  by the column sums clamped below.  The reference forms all assignments at once, divides each by its centre's clamped
  column sum of absolute values, and then contracts with the features.  On the extended reals, with every input a real
  number, both results are the same array: the assignments are positive reals, so the absolute values change nothing,
  the clamped column sum is a positive real, and dividing before or after the sum over the pixels is the distributive
  law over the reals; a sum over 16384 pixels taken in eight runs of 2048 is the same sum.
  The three frames are the generated ones (the reference's is its generated run with the result dropped); the ideal
  pass rewrote nothing, so the idealization claim is `True`.
-/
import proofs.«163917_j86466281603856_1_alg».proof.Defs
import proofs.«163917_j86466281603856_1_alg».proof.Proof.Gen.Kernel
import proofs.«163917_j86466281603856_1_alg».proof.Proof.Gen.Kernel.Skeleton
import proofs.«163917_j86466281603856_1_alg».proof.Proof.Gen.Kernel.Launch
import proofs.«163917_j86466281603856_1_alg».proof.Proof.Gen.Kernel.Points
import proofs.«163917_j86466281603856_1_alg».proof.Proof.Gen.Kernel.Frame
import proofs.«163917_j86466281603856_1_alg».proof.Proof.Gen.KernelIdeal
import proofs.«163917_j86466281603856_1_alg».proof.Proof.Gen.KernelIdeal.Skeleton
import proofs.«163917_j86466281603856_1_alg».proof.Proof.Gen.KernelIdeal.Launch
import proofs.«163917_j86466281603856_1_alg».proof.Proof.Gen.KernelIdeal.Points
import proofs.«163917_j86466281603856_1_alg».proof.Proof.Gen.KernelIdeal.Frame
import proofs.«163917_j86466281603856_1_alg».proof.Proof.Gen.ReferenceIdeal
import proofs.«163917_j86466281603856_1_alg».proof.Proof.Gen.KernelIdeal.Value
import proofs.«163917_j86466281603856_1_alg».proof.Proof.Gen.ReferenceIdeal.Run
import proofs.«163917_j86466281603856_1_alg».proof.Proof.Gen.ReferenceIdeal.Read
import proofs.«163917_j86466281603856_1_alg».proof.Proof.Gen.Pre_finite_inputs
import proofs.«163917_j86466281603856_1_alg».proof.Proof.Result
import proofs.«163917_j86466281603856_1_alg».proof.Proof.RefValue
import proofs.«163917_j86466281603856_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the new centres computed from the argument arrays: the kernel by its run read through the
    grid, the reference by its stages read at an index and, the inputs being real, the distributive law. -/
theorem algebraic : Cert.algebraic_KernelIdeal_ReferenceIdeal := by
  intro m ρ m' ρ' hpre hagree
  refine ⟨fun c => Cert.KernelIdeal.Centres.target m c, Cert.KernelIdeal.Centres.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Pre_finite_inputs.Real.all_real _ _ _ _ (hpre c)
  rw [Cert.ReferenceIdeal.Read.val_main_v36_eq, (hagree c).1, (hagree c).2.1, (hagree c).2.2.1, (hagree c).2.2.2]
  exact Cert.ReferenceIdeal.Centres.result_eq _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
